-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S16x1024x128 : S_.BroadcastsInDim S16x1024x128 (![] : Fin 0 → Fin S16x1024x128.rank)
  reducesTo_S16x1024x128_S_d0_1_2 : S16x1024x128.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S128x10 .f32) (main_arg6 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S16x1024x128 .f32) (main_arg1 : FVec F S16x1024x1024 .f32) (main_arg2 : FVec F S128x128 .f32) (main_arg3 : FVec F S128x128 .f32) (main_arg4 : FVec F S128 .f32) (main_arg5 : FVec F S128x10 .f32) (main_arg6 : FVec F S10 .f32) : IVec S_ 1 :=
  let main_v0 : FVec F S16x1024x128 .f32 := Host.absf main_arg0
  let main_cst : FVec F S_ .f32 := constant S_ .f32 0x7F800000#32
  let main_v1 : FVec F S16x1024x128 .f32 := broadcastInDim S16x1024x128 ![] bcast_S_S16x1024x128 main_cst
  let main_v2 : IVec S16x1024x128 1 := cmpf .olt main_v0 main_v1
  let main_c : IVec S_ 1 := constantI S_ 1 1#1
  let main_v3 : IVec S_ 1 := (fun x v => Host.reduce IntOp.andi x v reducesTo_S16x1024x128_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x128 : Shape := ⟨2, ![1, 128]⟩
abbrev S_ : Shape := ⟨0, ![]⟩
abbrev S1 : Shape := ⟨1, ![1]⟩
abbrev S2 : Shape := ⟨1, ![2]⟩
abbrev S16x1x128 : Shape := ⟨3, ![16, 1, 128]⟩
abbrev S2x1024x1024 : Shape := ⟨3, ![2, 1024, 1024]⟩
abbrev S2x1024x128 : Shape := ⟨3, ![2, 1024, 128]⟩
abbrev S2x1x128 : Shape := ⟨3, ![2, 1, 128]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩
abbrev S1x1x128 : Shape := ⟨3, ![1, 1, 128]⟩
abbrev S16x1x10 : Shape := ⟨3, ![16, 1, 10]⟩
abbrev S16x10 : Shape := ⟨2, ![16, 10]⟩

abbrev nBuf : Space → Nat
  | .hbm => 24
  | .vmem => 11
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S1x128, .f32⟩
  | .hbm, ⟨8, _⟩ => ⟨S_, .f32⟩
  | .hbm, ⟨9, _⟩ => ⟨S128x128, .f32⟩
  | .hbm, ⟨10, _⟩ => ⟨S_, .i32⟩
  | .hbm, ⟨11, _⟩ => ⟨S1, .i32⟩
  | .hbm, ⟨12, _⟩ => ⟨S128x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S16x1x128, .f32⟩
  | .hbm, ⟨22, _⟩ => ⟨S16x1x10, .f32⟩
  | .hbm, ⟨23, _⟩ => ⟨S16x10, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x128, .f32⟩
  | .local _ .vmem, ⟨3, _⟩ => ⟨S2x1024x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S2x1x128, .f32⟩
  | .local _ .vmem, ⟨10, _⟩ => ⟨S2x1x128, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  natLt_1_32 : 1 < 32
  bitsLt_bf16_f32 : FTy.bits .bf16 < FTy.bits .f32
  inb_S2x1024x128_S1x1024x128_0_0_0 : ∀ a, (![0, 0, 0] : Fin 3 → Nat) a + S1x1024x128.size a ≤ S2x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S128 : S1024x128.Reduces [0] S128
  shapeCasts_S128x128_S128x128 : S128x128.ShapeCasts S128x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  shapeCasts_S1x128_S1x1x128 : S1x128.ShapeCasts S1x1x128
  inb_S2x1024x1024_S1x1024x1024_1_0_0 : ∀ a, (![1, 0, 0] : Fin 3 → Nat) a + S1x1024x1024.size a ≤ S2x1024x1024.size a
  inb_S2x1024x128_S1x1024x128_1_0_0 : ∀ a, (![1, 0, 0] : Fin 3 → Nat) a + S1x1024x128.size a ≤ S2x1024x128.size a
  inb_S2x1x128_S1x1x128_1_0_0 : ∀ a, (![1, 0, 0] : Fin 3 → Nat) a + S1x1x128.size a ≤ S2x1x128.size a
  slices_S16x1x128_S16x1x10_0_0_0 : S16x1x128.Slices ![0, 0, 0] S16x1x10
  shapeCasts_S16x1x10_S16x10 : S16x1x10.ShapeCasts S16x10
  scatter_S128x128_S1_S128x10_01_n_1_0_wf : ScatterDims.WF S128x128 S1 S128x10 [0, 1] [] [1] 0
  scatter_S1x128_S2_S10_0_0_01_0_wf : ScatterDims.WF S1x128 S2 S10 [0] [0] [0, 1] 0
  dot_S1024x1024_S1024x128_S1024x128_0_0_1_1_n_n_wf : DotDims.WF S1024x1024 S1024x128 S1024x128 [0] [0] [1] [1] [] []
  dot_S1024x128_S128x128_S1024x128_1_0_0_1_n_n_wf : DotDims.WF S1024x128 S128x128 S1024x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S16x1024x1024.size a
  hwx0_0 : ∀ i : grid0.Coords, EltTy.bits .f32 = 32 ∨ (Rect.block (s := S16x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x128.size a ≤ S16x1024x128.size a
  hwx0_1 : ∀ i : grid0.Coords, EltTy.bits .f32 = 32 ∨ (Rect.block (s := S16x1024x128) S2x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1x128.size a ≤ S16x1x128.size a
  hwx0_7 : ∀ i : grid0.Coords, EltTy.bits .f32 = 32 ∨ (Rect.block (s := S16x1x128) S2x1x128.size (cc0_transform_7 i) (hinb0_7 i)).WholeWords (EltTy.packing .f32)

variable [Facts₀]

def scatter_S128x128_S1_S128x10_01_n_1_0 : ScatterDims S128x128 S1 S128x10 where
  updateWindowDims := [0, 1]
  insertedWindowDims := []
  scatterDimsToOperandDims := [1]
  indexVectorDim := 0
  wf := scatter_S128x128_S1_S128x10_01_n_1_0_wf
def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg1) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1x1x128 : Shape := ⟨3, ![1, 1, 128]⟩
abbrev S16x128 : Shape := ⟨2, ![16, 128]⟩
abbrev S16x10 : Shape := ⟨2, ![16, 10]⟩
abbrev S1x10 : Shape := ⟨2, ![1, 10]⟩

abbrev nBuf : Space → Nat
  | .hbm => 30
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S_, .f32⟩
  | .hbm, ⟨8, _⟩ => ⟨S16x1024x1024, .f32⟩
  | .hbm, ⟨9, _⟩ => ⟨S16x1024x1024, .i1⟩
  | .hbm, ⟨10, _⟩ => ⟨S16x1024x1024, .f32⟩
  | .hbm, ⟨11, _⟩ => ⟨S16x1024x128, .f32⟩
  | .hbm, ⟨12, _⟩ => ⟨S16x1024x128, .f32⟩
  | .hbm, ⟨13, _⟩ => ⟨S16x1024x128, .f32⟩
  | .hbm, ⟨14, _⟩ => ⟨S16x1024x128, .f32⟩
  | .hbm, ⟨15, _⟩ => ⟨S1x1x128, .f32⟩
  | .hbm, ⟨16, _⟩ => ⟨S16x1024x128, .f32⟩
  | .hbm, ⟨17, _⟩ => ⟨S16x1024x128, .f32⟩
  | .hbm, ⟨18, _⟩ => ⟨S_, .f32⟩
  | .hbm, ⟨19, _⟩ => ⟨S16x1024x128, .f32⟩
  | .hbm, ⟨20, _⟩ => ⟨S16x1024x128, .f32⟩
  | .hbm, ⟨21, _⟩ => ⟨S_, .f32⟩
  | .hbm, ⟨22, _⟩ => ⟨S16x128, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S16x10, .f32⟩
  | .hbm, ⟨27, _⟩ => ⟨S1x10, .f32⟩
  | .hbm, ⟨28, _⟩ => ⟨S16x10, .f32⟩
  | .hbm, ⟨29, _⟩ => ⟨S16x10, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  bcast_S_S16x1024x128 : S_.BroadcastsInDim S16x1024x128 (![] : Fin 0 → Fin S16x1024x128.rank)
  reducesTo_S16x1024x128_S16x128_d1 : S16x1024x128.ReducesTo [1] S16x128
  h_S_ : 0 < S_.numel
  bcast_S_S16x128 : S_.BroadcastsInDim S16x128 (![] : Fin 0 → Fin S16x128.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  dot_S16x1024x1024_S16x1024x128_S16x1024x128_1_1_2_2_0_0_wf : DotDims.WF S16x1024x1024 S16x1024x128 S16x1024x128 [1] [1] [2] [2] [0] [0]
  dot_S16x1024x128_S128x128_S16x1024x128_2_0_01_1_n_n_wf : DotDims.WF S16x1024x128 S128x128 S16x1024x128 [2] [0] [0, 1] [1] [] []
  dot_S16x128_S128x10_S16x10_1_0_0_1_n_n_wf : DotDims.WF S16x128 S128x10 S16x10 [1] [0] [0] [1] [] []

variable [Facts₀]

def dot_S16x1024x1024_S16x1024x128_S16x1024x128_1_1_2_2_0_0 : DotDims S16x1024x1024 S16x1024x128 S16x1024x128 where
  lhsContracting := [1]
  rhsContracting := [1]
  lhsNonContracting := [2]
  rhsNonContracting := [2]
  lhsBatch := [0]
  rhsBatch := [0]
  wf := dot_S16x1024x1024_S16x1024x128_S16x1024x128_1_1_2_2_0_0_wf
def dot_S16x1024x128_S128x128_S16x1024x128_2_0_01_1_n_n : DotDims S16x1024x128 S128x128 S16x1024x128 where
  lhsContracting := [2]
  rhsContracting := [0]
  lhsNonContracting := [0, 1]
  rhsNonContracting := [1]
  lhsBatch := []
  rhsBatch := []
  wf := dot_S16x1024x128_S128x128_S16x1024x128_2_0_01_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

class Facts : Prop extends Facts₀ where

variable [Facts]
-- ==== Proof.Spec.lean ====
/-
  The graph classifier both programs compute, as one function of the argument arrays, index by index, on the
  extended reals.

  Per batch element β: an edge i → j is present when adj(β,i,j) > 1/2 (the indicator is 1 or 0); node j aggregates the
  features of its in-neighbours, agg(j,d) = ∑ i, edge(i,j) · x(i,d); the hidden layer is
  h(n,k) = max (∑ d, x(n,d)·W_root(d,k) + ∑ d, agg(n,d)·W_nbr(d,k) + b(k)) 0; the graph's pooled feature is the mean over
  its 1024 nodes, (∑ n, h(n,k)) · (1/1024); and class c scores ∑ k, pooled(k)·W_cls(k,c) + b_cls(c).

  Also here: the three float literals the programs spell, as the extended reals they denote (the threshold 1/2 is the
  same word in both programs and is never evaluated).
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

abbrev SX : Shape := ⟨3, ![16, 1024, 128]⟩
abbrev SA : Shape := ⟨3, ![16, 1024, 1024]⟩
abbrev SW : Shape := ⟨2, ![128, 128]⟩
abbrev SB : Shape := ⟨1, ![128]⟩
abbrev SC : Shape := ⟨2, ![128, 10]⟩
abbrev SD : Shape := ⟨1, ![10]⟩
abbrev SO : Shape := ⟨2, ![16, 10]⟩

/-- The edge indicator of an adjacency weight: 1 above the threshold 1/2, else 0 (the comparison's bit read as a
    natural number). -/
def edge (a : EReal) : EReal :=
  FloatOps.uitofp (F := Ideal) .f32 (FloatOps.cmpf (F := Ideal) .ogt a (Ideal.ofBits .f32 0x3F000000#32))

/-- What node `j` of graph `β` gathers along feature `d`: the sum of its in-neighbours' features. -/
def agg (x : SX.Idx → EReal) (adj : SA.Idx → EReal) (β : Fin 16) (j : Fin 1024) (d : Fin 128) : EReal :=
  ∑ i : Fin 1024, edge (adj (ix3 β i j)) * x (ix3 β i d)

/-- The hidden unit `k` of node `n` of graph `β`, after the rectifier. -/
def hid (x : SX.Idx → EReal) (adj : SA.Idx → EReal) (wr wn : SW.Idx → EReal) (b : SB.Idx → EReal)
    (β : Fin 16) (n : Fin 1024) (k : Fin 128) : EReal :=
  max ((∑ d : Fin 128, x (ix3 β n d) * wr (ix2 d k)) + (∑ d : Fin 128, agg x adj β n d * wn (ix2 d k)) + b (ix1 k)) 0

/-- The mean of hidden unit `k` over the 1024 nodes of graph `β`. -/
def pooled (x : SX.Idx → EReal) (adj : SA.Idx → EReal) (wr wn : SW.Idx → EReal) (b : SB.Idx → EReal)
    (β : Fin 16) (k : Fin 128) : EReal :=
  (∑ n : Fin 1024, hid x adj wr wn b β n k) * ((1 / 1024 : ℝ) : EReal)

/-- The class scores of every graph. -/
def logits (x : SX.Idx → EReal) (adj : SA.Idx → EReal) (wr wn : SW.Idx → EReal) (b : SB.Idx → EReal)
    (wc : SC.Idx → EReal) (bc : SD.Idx → EReal) : SO.Idx → EReal := fun i =>
  (∑ k : Fin 128, pooled x adj wr wn b (i 0) k * wc (ix2 k (i 1))) + bc (ix1 (i 1))

/-! ## The literals -/

/-- The word `1024.0` denotes the real 1024. -/
theorem ofBits_1024 : Ideal.ofBits .f32 0x44800000#32 = ((1024 : ℝ) : EReal) := by
  simp [Ideal.ofBits, Ideal.ieee, -EReal.coe_mul]; norm_num

/-- The word `9.765625e-4` denotes exactly 1/1024 = 2⁻¹⁰. -/
theorem ofBits_inv_1024 : Ideal.ofBits .f32 0x3A800000#32 = ((1 / 1024 : ℝ) : EReal) := by
  simp [Ideal.ofBits, Ideal.ieee, -EReal.coe_mul]; norm_num

/-- Dividing by the word `1024.0` is multiplying by 1/1024, at the infinities too. -/
theorem div_1024 (s : EReal) : Ideal.div s (Ideal.ofBits .f32 0x44800000#32) = s * ((1 / 1024 : ℝ) : EReal) := by
  rw [ofBits_1024, Ideal.div_coe (by norm_num : (1024 : ℝ) ≠ 0)]

/-- A comparison bit widened to 32 bits and read signed is the bit read unsigned: both are 0 or 1. -/
theorem bit_signed_eq_unsigned (b : BitVec 1) (h : 1 < 32) :
    FloatOps.sitofp (F := Ideal) .f32 (b.setWidth 32) = FloatOps.uitofp (F := Ideal) .f32 b := by
  have hb : ∀ b : BitVec 1, (b.setWidth 32).toInt = ((b.toNat : ℕ) : ℤ) := by decide
  show (((b.setWidth 32).toInt : ℝ) : EReal) = (((b.toNat : ℕ) : ℝ) : EReal)
  rw [hb b, Int.cast_natCast]

end Cert.GraphConv

end
-- ==== Proof.RefSpec.lean ====
/-
  The reference program's result is the class scores of the specification.

  Its stages are read one at a time at coordinates: the thresholded adjacency is the edge indicator; the batched product
  'bij,bid->bjd' is the neighbour aggregate; the two products with the weight matrices, their sum, the bias and the
  rectifier are the hidden layer; the sum over nodes divided by 1024 is the pooled mean (division by 1024 is
  multiplication by 1/1024 on every extended real); the last product and the bias are the scores.
-/
import proofs.«150283_g37177236914914_cont_8to1_b_461_24_alg».proof.Proof.Gen.ReferenceIdeal.Read
import proofs.«150283_g37177236914914_cont_8to1_b_461_24_alg».proof.Proof.Spec

noncomputable section

namespace Cert.GraphConv.Ref

open Idealize.ShloMosaic Idealize.ShloMosaic.ValueIdx Cert.ReferenceIdeal Cert.ReferenceIdeal.Read Cert.GraphConv

variable (x0 : SX.Idx → EReal) (x1 : SA.Idx → EReal) (x2 x3 : SW.Idx → EReal) (x4 : SB.Idx → EReal)
  (x5 : SC.Idx → EReal) (x6 : SD.Idx → EReal)

/-- The thresholded adjacency, converted to a float, is the edge indicator. -/
theorem edge_at (i : SA.Idx) : val_main_v2 (F := Ideal) x1 i = edge (x1 i) := by
  rw [val_main_v2_apply, val_main_v1_apply, val_main_v0_apply, val_main_cst_apply]
  rfl

/-- The batched product over source nodes is the neighbour aggregate. -/
theorem agg_at (β : Fin 16) (j : Fin 1024) (d : Fin 128) :
    val_main_v3 (F := Ideal) x0 x1 (ix3 β j d) = agg x0 x1 β j d := by
  rw [val_main_v3_apply]
  unfold agg
  refine Finset.sum_congr rfl fun i _ => ?_
  rw [edge_at]
  have el : lidx_main_v3 (ix3 β j d) i = ix3 β i j := funext fun a => by
    match a with | ⟨0, _⟩ => rfl | ⟨1, _⟩ => rfl | ⟨2, _⟩ => rfl
  have er : ridx_main_v3 (ix3 β j d) i = ix3 β i d := funext fun a => by
    match a with | ⟨0, _⟩ => rfl | ⟨1, _⟩ => rfl | ⟨2, _⟩ => rfl
  rw [el, er]

/-- The hidden layer after the rectifier. -/
theorem hid_at (β : Fin 16) (n : Fin 1024) (k : Fin 128) :
    val_main_v10 (F := Ideal) x0 x1 x2 x3 x4 (ix3 β n k) = hid x0 x1 x2 x3 x4 β n k := by
  rw [val_main_v10_apply, val_main_v9_apply, val_main_v6_apply, val_main_v4_apply, val_main_v5_apply,
    val_main_v8_apply, val_main_v7_apply, val_main_call0_v0_apply, val_main_call0_cst_apply]
  unfold hid
  have e4l : ∀ d : Fin 128, lidx_main_v4 (ix3 β n k) d = ix3 β n d := fun d => funext fun a => by
    match a with | ⟨0, _⟩ => rfl | ⟨1, _⟩ => rfl | ⟨2, _⟩ => rfl
  have e4r : ∀ d : Fin 128, ridx_main_v4 (ix3 β n k) d = ix2 d k := fun d => funext fun a => by
    match a with | ⟨0, _⟩ => rfl | ⟨1, _⟩ => rfl
  have e5l : ∀ d : Fin 128, lidx_main_v5 (ix3 β n k) d = ix3 β n d := fun d => funext fun a => by
    match a with | ⟨0, _⟩ => rfl | ⟨1, _⟩ => rfl | ⟨2, _⟩ => rfl
  have e5r : ∀ d : Fin 128, ridx_main_v5 (ix3 β n k) d = ix2 d k := fun d => funext fun a => by
    match a with | ⟨0, _⟩ => rfl | ⟨1, _⟩ => rfl
  have eb : idx_main_v7 (idx_main_v8 (ix3 β n k)) = ix1 k := funext fun a => by
    match a with | ⟨0, _⟩ => rfl
  simp only [e4l, e4r, e5l, e5r, eb, agg_at]
  show max _ (Ideal.ofBits .f32 0x00000000#32) = _
  rw [Ideal.ofBits_zero_f32]
  rfl

/-- The sum over nodes divided by 1024 is the pooled mean. -/
theorem pooled_at (β : Fin 16) (k : Fin 128) :
    val_main_v13 (F := Ideal) x0 x1 x2 x3 x4 (ix2 β k) = pooled x0 x1 x2 x3 x4 β k := by
  rw [val_main_v13_apply, val_main_v11_apply, val_main_v12_apply, val_main_cst_1_apply, val_main_cst_0_apply]
  unfold pooled
  have e : ∀ n : Fin 1024, idx_main_v11 (ix2 β k) n = ix3 β n k := fun n => funext fun a => by
    match a with | ⟨0, _⟩ => rfl | ⟨1, _⟩ => rfl | ⟨2, _⟩ => rfl
  simp only [e, hid_at]
  show Ideal.div (Ideal.ofBits .f32 0x00000000#32 + _) (Ideal.ofBits .f32 0x44800000#32) = _
  rw [Ideal.ofBits_zero_f32, zero_add, div_1024]

/-- THE REFERENCE'S RESULT is the class scores. -/
theorem result_eq : val_main_v17 (F := Ideal) x0 x1 x2 x3 x4 x5 x6 = logits x0 x1 x2 x3 x4 x5 x6 := by
  funext i
  obtain ⟨β, c, rfl⟩ : ∃ (β : Fin 16) (c : Fin 10), i = ix2 β c := ⟨i 0, i 1, eq_ix2 i⟩
  rw [val_main_v17_apply, val_main_v14_apply, val_main_v16_apply, val_main_v15_apply]
  unfold logits
  have el : ∀ k : Fin 128, lidx_main_v14 (ix2 β c) k = ix2 β k := fun k => funext fun a => by
    match a with | ⟨0, _⟩ => rfl | ⟨1, _⟩ => rfl
  have er : ∀ k : Fin 128, ridx_main_v14 (ix2 β c) k = ix2 k c := fun k => funext fun a => by
    match a with | ⟨0, _⟩ => rfl | ⟨1, _⟩ => rfl
  have eb : idx_main_v15 (idx_main_v16 (ix2 β c)) = ix1 c := funext fun a => by
    match a with | ⟨0, _⟩ => rfl
  simp only [el, er, eb, pooled_at]
  rfl

end Cert.GraphConv.Ref

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibFirstAxesDot.lean ====
/-
  A matrix product contracting both operands' FIRST axes, into a zero accumulator, read at coordinates.

  For a dot of a `[K, M]` matrix with a `[K, N]` matrix whose dimension numbers contract the two first axes and keep the
  two second axes in order (the einsum 'km,kn->mn': the left operand used transposed without a transpose being
  materialized), the product accumulated into the zero splat is, at `(p, c)`,

      ∑ k : Fin K, l (k, p) · r (k, c)

  on the extended reals. The dimension record enters only through four facts about its operand indices — the left index at
  output index `i` and contraction position `q` is `(q, i 0)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.FirstAxesDot

open Idealize.ShloMosaic Idealize.ShloMosaic.ValueIdx

/-- The product of a `[K, M]` and a `[K, N]` matrix over their first axes into the zero splat at `(p, c)`: the sum over `k`
    of `l (k, p) · r (k, c)`. -/
theorem matmul_zero_first_axes {K M N : ℕ} {φ₁ φ₂ : FTy}
    (D : DotDims ⟨2, ![K, M]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (q ⟨0, by omega⟩).val)
    (hl1 : ∀ (i : (⟨2, ![M, N]⟩ : Shape).Idx) (q : D.contr.Idx), (D.lhsIdx i q (1 : Fin 2)).val = (i (0 : Fin 2)).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![K, M]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 k p) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p := funext fun a => Fin.ext (by
    match a with
    | ⟨0, _⟩ => exact (hl0 _ _).trans hk
    | ⟨1, _⟩ => exact hl1 _ _)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.FirstAxesDot
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.Payload.lean ====
/-
  What the kernel body computes for one graph, read at a class column.

  The body's arithmetic for one of the two graphs of a block is one pure term of the seven loaded blocks (the adjacency slab,
  the node features, the two weight matrices, the bias row, the padded classifier matrix and its padded bias row). Read
  at column c it is

      (∑ k, ((∑ n, max (∑ d, x(n,d)·W_root(d,k) + ∑ d, (∑ i, edge(a(i,n))·x(i,d))·W_nbr(d,k) + b(k)) 0) · 2⁻¹⁰) · W(k,c)) + β(c):

  the three matrix products into zero accumulators are plain sums over the contracted axis (the first one contracts both
  operands' first axes, so the adjacency is used transposed), the column reduction is a plain sum over the rows, a change
  of float format is the identity, and the comparison bit widened and read signed is the bit read unsigned.
-/
import proofs.«150283_g37177236914914_cont_8to1_b_461_24_alg».proof.Proof.Gen.KernelIdeal.Skeleton
import proofs.«150283_g37177236914914_cont_8to1_b_461_24_alg».proof.Proof.Spec
import proofs.«150283_g37177236914914_cont_8to1_b_461_24_alg».proof.Proof.LibPlainDot
import proofs.«150283_g37177236914914_cont_8to1_b_461_24_alg».proof.Proof.LibFirstAxesDot
import proofs.«150283_g37177236914914_cont_8to1_b_461_24_alg».proof.Proof.LibLift2
import Idealize.ShloMosaic.PureOps.Ideal.Laws
import Idealize.ShloMosaic.Lib.ValueLayout
import Idealize.ShloMosaic.Lib.Pipeline.Value

noncomputable section

namespace Cert.GraphConv.Body

open Idealize.ShloMosaic Idealize.ShloMosaic.ValueIdx Cert.KernelIdeal Cert.KernelIdeal.Gen Cert.GraphConv

/-- The class score of one graph at (padded) column `c`, from its blocks: the adjacency slab `a`, the features `xb`, the
    weights `wr`, `wn`, the bias row `b`, the padded classifier `wc` and its padded bias row `bc`. -/
def rowScore (a : (⟨3, ![1, 1024, 1024]⟩ : Shape).Idx → EReal) (xb : (⟨3, ![1, 1024, 128]⟩ : Shape).Idx → EReal)
    (wr wn : (⟨2, ![128, 128]⟩ : Shape).Idx → EReal) (b : (⟨2, ![1, 128]⟩ : Shape).Idx → EReal)
    (wc : (⟨2, ![128, 128]⟩ : Shape).Idx → EReal) (bc : (⟨2, ![1, 128]⟩ : Shape).Idx → EReal) (c : Fin 128) : EReal :=
  (∑ k : Fin 128, ((∑ n : Fin 1024,
      max ((∑ d : Fin 128, xb (ix3 (0 : Fin 1) n d) * wr (ix2 d k))
        + (∑ d : Fin 128, (∑ i : Fin 1024, edge (a (ix3 (0 : Fin 1) i n)) * xb (ix3 (0 : Fin 1) i d)) * wn (ix2 d k))
        + b (ix2 (0 : Fin 1) k)) 0) * ((1 / 1024 : ℝ) : EReal)) * wc (ix2 k c))
    + bc (ix2 (0 : Fin 1) c)

/-! ## The three matrix products, read at coordinates -/

/-- The aggregation product contracts the FIRST axis of both operands: entry (j, d) sums over the source node i. -/
theorem aggDot_at (l : FVec Ideal S1024x1024 .bf16) (r : FVec Ideal S1024x128 .bf16) (p : Fin 1024) (c : Fin 128) :
    matmul dot_S1024x1024_S1024x128_S1024x128_0_0_1_1_n_n none l r (constant (F := Ideal) S1024x128 .f32 0x00000000#32) (ix2 p c)
      = ∑ k : Fin 1024, l (ix2 k p) * r (ix2 k c) :=
  Cert.Lib.FirstAxesDot.matmul_zero_first_axes dot_S1024x1024_S1024x128_S1024x128_0_0_1_1_n_n rfl rfl
    (fun i q => dot_S1024x1024_S1024x128_S1024x128_0_0_1_1_n_n.lhsIdx_val_of_single rfl i q)
    (fun i q => by
      unfold DotDims.lhsIdx
      rw [dif_neg (show ¬(1 : Fin S1024x1024.rank) ∈ dot_S1024x1024_S1024x128_S1024x128_0_0_1_1_n_n.lhsBatch by decide),
        dif_pos (show (1 : Fin S1024x1024.rank) ∈ dot_S1024x1024_S1024x128_S1024x128_0_0_1_1_n_n.lhsNonContracting by decide)]
      rfl)
    (fun i q => dot_S1024x1024_S1024x128_S1024x128_0_0_1_1_n_n.rhsIdx_val_of_single rfl i q)
    (fun i q => by
      unfold DotDims.rhsIdx
      rw [dif_neg (show ¬(1 : Fin S1024x128.rank) ∈ dot_S1024x1024_S1024x128_S1024x128_0_0_1_1_n_n.rhsBatch by decide),
        dif_pos (show (1 : Fin S1024x128.rank) ∈ dot_S1024x1024_S1024x128_S1024x128_0_0_1_1_n_n.rhsNonContracting by decide)]
      rfl)
    none l r p c

/-- A product of the node features (or aggregates) with a weight matrix: entry (n, k) sums over the feature d. -/
theorem layerDot_at (l : FVec Ideal S1024x128 .f32) (r : FVec Ideal S128x128 .f32) (p : Fin 1024) (c : Fin 128) :
    matmul dot_S1024x128_S128x128_S1024x128_1_0_0_1_n_n none l r (constant (F := Ideal) S1024x128 .f32 0x00000000#32) (ix2 p c)
      = ∑ k : Fin 128, l (ix2 p k) * r (ix2 k c) :=
  Cert.Lib.PlainDot.matmul_zero_ix2 dot_S1024x128_S128x128_S1024x128_1_0_0_1_n_n rfl rfl
    (fun i q => by
      unfold DotDims.lhsIdx
      rw [dif_neg (show ¬(0 : Fin S1024x128.rank) ∈ dot_S1024x128_S128x128_S1024x128_1_0_0_1_n_n.lhsBatch by decide),
        dif_pos (show (0 : Fin S1024x128.rank) ∈ dot_S1024x128_S128x128_S1024x128_1_0_0_1_n_n.lhsNonContracting by decide)]
      rfl)
    (fun i q => dot_S1024x128_S128x128_S1024x128_1_0_0_1_n_n.lhsIdx_val_of_single rfl i q)
    (fun i q => dot_S1024x128_S128x128_S1024x128_1_0_0_1_n_n.rhsIdx_val_of_single rfl i q)
    (fun i q => by
      unfold DotDims.rhsIdx
      rw [dif_neg (show ¬(1 : Fin S128x128.rank) ∈ dot_S1024x128_S128x128_S1024x128_1_0_0_1_n_n.rhsBatch by decide),
        dif_pos (show (1 : Fin S128x128.rank) ∈ dot_S1024x128_S128x128_S1024x128_1_0_0_1_n_n.rhsNonContracting by decide)]
      rfl)
    none l r p c

/-- The classifier product of the pooled row with the padded classifier matrix: entry (0, c) sums over the hidden unit k. -/
theorem headDot_at (l : FVec Ideal S1x128 .f32) (r : FVec Ideal S128x128 .f32) (p : Fin 1) (c : Fin 128) :
    matmul dot_S1x128_S128x128_S1x128_1_0_0_1_n_n none l r (constant (F := Ideal) S1x128 .f32 0x00000000#32) (ix2 p c)
      = ∑ k : Fin 128, l (ix2 p k) * r (ix2 k c) :=
  Cert.Lib.PlainDot.matmul_zero_ix2 dot_S1x128_S128x128_S1x128_1_0_0_1_n_n rfl rfl
    (fun i q => by
      unfold DotDims.lhsIdx
      rw [dif_neg (show ¬(0 : Fin S1x128.rank) ∈ dot_S1x128_S128x128_S1x128_1_0_0_1_n_n.lhsBatch by decide),
        dif_pos (show (0 : Fin S1x128.rank) ∈ dot_S1x128_S128x128_S1x128_1_0_0_1_n_n.lhsNonContracting by decide)]
      rfl)
    (fun i q => dot_S1x128_S128x128_S1x128_1_0_0_1_n_n.lhsIdx_val_of_single rfl i q)
    (fun i q => dot_S1x128_S128x128_S1x128_1_0_0_1_n_n.rhsIdx_val_of_single rfl i q)
    (fun i q => by
      unfold DotDims.rhsIdx
      rw [dif_neg (show ¬(1 : Fin S128x128.rank) ∈ dot_S1x128_S128x128_S1x128_1_0_0_1_n_n.rhsBatch by decide),
        dif_pos (show (1 : Fin S128x128.rank) ∈ dot_S1x128_S128x128_S1x128_1_0_0_1_n_n.rhsNonContracting by decide)]
      rfl)
    none l r p c

/-- The sum of the hidden layer over the nodes, at hidden unit `t`. -/
theorem nodeSum_at (v : FVec Ideal S1024x128 .f32) (h : S1024x128.Reduces [0] S128) (hφ : FKind.Formats .f32)
    (hacc : (0x00000000#32 : BitVec FTy.f32.bits) = FKind.add.neutral .f32 hφ) (t : Fin 128) :
    multiReduction .add [0] S128 v 0x00000000#32 h hφ hacc (ix1 t) = ∑ r : Fin 1024, v (ix2 r t) := by
  refine (Ideal.multiReduction_add_single v 0x00000000#32 h hφ hacc (ix1 t)).trans ?_
  show ∑ k : Fin 1024, v (h.lift (ix1 t) k) = _
  exact Finset.sum_congr rfl fun k _ => congrArg v (Cert.Lift2.lift_axis0 h t k)

/-- The comparison's bit, widened to a 32-bit integer and converted as a signed integer, is the bit converted as an
    unsigned one. -/
theorem widened_bit (b : BitVec 1) :
    FloatOps.sitofp (F := Ideal) .f32 (b.setWidth 32) = FloatOps.uitofp (F := Ideal) .f32 b :=
  bit_signed_eq_unsigned b (by decide)

/-! ## The body's term at a column -/

/-- THE BODY'S SCORE ROW for one graph, read at column `c`, is `rowScore` of the loaded blocks. -/
theorem pay_at (v0 : Vec Ideal S1x1024x1024 .f32) (v7 : Vec Ideal S1x1024x128 .f32) (v11 v13 : Vec Ideal S128x128 .f32)
    (v16 : Vec Ideal S1x128 .f32) (v26 : Vec Ideal S128x128 .f32) (v29 : Vec Ideal S1x128 .f32) (c : Fin 128) :
    k0_pay2 (F := Ideal) v0 v7 v11 v13 v16 v26 v29 (ix2 (0 : Fin 1) c) = rowScore v0 v7 v11 v13 v16 v26 v29 c := by
  have nodeSum : ∀ (v : FVec Ideal S1024x128 .f32) (k : Fin 128),
      multiReduction .add [0] S128 v 0x00000000#32 reduces_S1024x128_S128 (.inl rfl) rfl (ix1 k)
        = ∑ r : Fin 1024, v (ix2 r k) := fun v k => nodeSum_at v _ _ _ k
  unfold k0_pay2 rowScore edge
  simp only [addf_apply, mulf_apply, maximumf_apply, broadcast_apply, truncf_apply, sitofp_apply, extui_apply, cmpf_apply,
    headDot_at, layerDot_at, aggDot_at, nodeSum, shapeCast_self, shapeCast_a_1a_apply, shapeCast_1ab_ab_apply,
    broadcastTo_1b_ab_apply, widened_bit, Ideal.ofBits_def, Ideal.ofBits_zero_f32, ofBits_inv_1024]

end Cert.GraphConv.Body

end
-- ==== Proof.OutBlock.lean ====
/-
  What the kernel body leaves in the output block of a grid point, read at (τ, 0, c).

  A grid point handles two graphs. The block's 2 × 1 × 128 buffer is written by two stores, row τ = 0 from the first
  graph's slabs (rows 0 of the adjacency and feature blocks) and row τ = 1 from the second graph's (rows 1); the two rows
  tile the buffer. Row τ at column c is the score row of graph τ of the block: the body's term of the slabs of index τ.
-/
import proofs.«150283_g37177236914914_cont_8to1_b_461_24_alg».proof.Proof.Gen.KernelIdeal.Frame
import proofs.«150283_g37177236914914_cont_8to1_b_461_24_alg».proof.Proof.Payload
import Idealize.ShloMosaic.Lib.Pipeline.Value
import Idealize.ShloMosaic.Lib.ValueLayout

noncomputable section

namespace Cert.GraphConv.Body

open Idealize.ShloMosaic Idealize.ShloMosaic.ValueIdx Cert.KernelIdeal Cert.KernelIdeal.Gen Cert.GraphConv

/-- Slab `τ` of a two-graph block of shape [2, a, b], as a [1, a, b] array. -/
def slab {a b : ℕ} (X : (⟨3, ![2, a, b]⟩ : Shape).Idx → EReal) (τ : Fin 2) : (⟨3, ![1, a, b]⟩ : Shape).Idx → EReal :=
  fun y => X (ix3 τ (y 1) (y 2))

/-- The second graph's term is the first graph's term of its own loads: the two unrolled iterations are one function. -/
theorem pay4_eq_pay2 (v0 : Vec Ideal S1x1024x1024 .f32) (v7 : Vec Ideal S1x1024x128 .f32) (v11 v13 : Vec Ideal S128x128 .f32)
    (v16 : Vec Ideal S1x128 .f32) (v26 : Vec Ideal S128x128 .f32) (v29 : Vec Ideal S1x128 .f32) :
    k0_pay4 (F := Ideal) v0 v7 v11 v13 v16 v26 v29 = k0_pay2 (F := Ideal) v0 v7 v11 v13 v16 v26 v29 := rfl

theorem zero2 : (![0, 0] : Fin 2 → Nat) = fun _ => 0 := funext fun a => by fin_cases a <;> rfl

/-- A load of graph `τ`'s rows of a two-graph block reads slab `τ`. -/
theorem ld_slab {a b : ℕ} (X : (⟨3, ![2, a, b]⟩ : Shape).Idx → EReal) (τ : Fin 2)
    (inb : ∀ d, (![τ.val, 0, 0] : Fin 3 → Nat) d + (![1, a, b] : Fin 3 → Nat) d ≤ (⟨3, ![2, a, b]⟩ : Shape).size d) :
    (View.ld (Val := Elt Ideal) (e' := .f32) X (Rect.unit (s := ⟨3, ![2, a, b]⟩) ![τ.val, 0, 0] ![1, a, b] inb)
      : (⟨3, ![1, a, b]⟩ : Shape).Idx → EReal) = slab X τ := by
  funext y
  show X (LoadRect.idx _ y) = X (ix3 τ (y 1) (y 2))
  refine congrArg X (funext fun d => Fin.ext ?_)
  match d with
  | ⟨0, _⟩ =>
    show τ.val + 1 * (y 0).val = τ.val
    have h : (y 0).val < 1 := (y 0).isLt
    omega
  | ⟨1, _⟩ => show 0 + 1 * (y 1).val = (y 1).val; omega
  | ⟨2, _⟩ => show 0 + 1 * (y 2).val = (y 2).val; omega

/-- The buffer after two stores that write its two rows, read at (τ, 0, c): the later store's payload in row 1, the earlier
    one's in row 0, each at (0, 0, c). -/
theorem canon_rows (p0 p1 : S1x1x128.Idx → EReal) (τ : Fin 2) (c : Fin 128) :
    View.canon ([⟨r0_7, p0⟩, ⟨r0_4, p1⟩] : List (View.Piece (Elt Ideal) S2x1x128 .f32)) (ix3 τ (0 : Fin 1) c)
      = if τ.val = 1 then p0 (ix3 (0 : Fin 1) (0 : Fin 1) c) else p1 (ix3 (0 : Fin 1) (0 : Fin 1) c) := by
  refine View.canon_apply_of_pieces (Val := Elt Ideal)
    (fun y : S2x1x128.Idx => if (y 0).val = 1 then p0 (ix3 (0 : Fin 1) (0 : Fin 1) ⟨(y 2).val, (y 2).isLt⟩)
      else p1 (ix3 (0 : Fin 1) (0 : Fin 1) ⟨(y 2).val, (y 2).isLt⟩)) _ ?_ (ix3 τ (0 : Fin 1) c) (cover0_7 p0 p1 _)
  intro p hp x
  simp only [List.mem_cons, List.mem_nil_iff, or_false] at hp
  rcases hp with rfl | rfl
  · have h0 : (x 0).val < 1 := (x 0).isLt
    have h1 : (x 1).val < 1 := (x 1).isLt
    have e0 : ((r0_7 : Rect S2x1x128).emb x 0).val = 1 := by show 1 + 1 * (x 0).val = 1; omega
    dsimp only
    rw [if_pos e0]
    refine congrArg p0 (funext fun d => Fin.ext ?_)
    match d with
    | ⟨0, _⟩ => show (x 0).val = 0; omega
    | ⟨1, _⟩ => show (x 1).val = 0; omega
    | ⟨2, _⟩ => show (x 2).val = 0 + 1 * (x 2).val; omega
  · have h0 : (x 0).val < 1 := (x 0).isLt
    have h1 : (x 1).val < 1 := (x 1).isLt
    have e0 : ¬ ((r0_4 : Rect S2x1x128).emb x 0).val = 1 := by show ¬ (0 + 1 * (x 0).val = 1); omega
    dsimp only
    rw [if_neg e0]
    refine congrArg p1 (funext fun d => Fin.ext ?_)
    match d with
    | ⟨0, _⟩ => show (x 0).val = 0; omega
    | ⟨1, _⟩ => show (x 1).val = 0; omega
    | ⟨2, _⟩ => show (x 2).val = 0 + 1 * (x 2).val; omega

/-- One graph's score row, cast to a 1 × 1 × 128 block and read at (0, 0, c), from the loads of that graph's slabs. -/
theorem row_at (x0 : Vec Ideal S2x1024x1024 .f32) (x1 : Vec Ideal S2x1024x128 .f32) (x2 x3 : Vec Ideal S128x128 .f32)
    (x4 : Vec Ideal S1x128 .f32) (x5 : Vec Ideal S128x128 .f32) (x6 : Vec Ideal S1x128 .f32) (τ : Fin 2) (c : Fin 128)
    (v0 : Vec Ideal S1x1024x1024 .f32) (v7 : Vec Ideal S1x1024x128 .f32) (e0 : v0 = slab x0 τ) (e7 : v7 = slab x1 τ) :
    k0_pay3 (F := Ideal) (k0_pay2 v0 v7 (View.ld x2 r0_2) (View.ld x3 r0_2) (View.ld x4 r0_3) (View.ld x5 r0_2) (View.ld x6 r0_3))
        (ix3 (0 : Fin 1) (0 : Fin 1) c)
      = rowScore (slab x0 τ) (slab x1 τ) x2 x3 x4 x5 x6 c := by
  subst e0 e7
  unfold k0_pay3
  refine (shapeCast_ab_1ab_apply _ _ _ _ _).trans ((pay_at _ _ _ _ _ _ _ c).trans ?_)
  simp only [View.ld_unit_zero (S := S128x128) zero2, View.ld_unit_zero (S := S1x128) zero2]

/-- The second graph's store casts its row the same way. -/
theorem pay1_eq_pay3 (v : FVec Ideal S1x128 .f32) : k0_pay1 (F := Ideal) v = k0_pay3 (F := Ideal) v := rfl

/-- Row `τ`, column `c` of the block the body leaves. -/
theorem out_at (x0 : Vec Ideal S2x1024x1024 .f32) (x1 : Vec Ideal S2x1024x128 .f32) (x2 x3 : Vec Ideal S128x128 .f32)
    (x4 : Vec Ideal S1x128 .f32) (x5 : Vec Ideal S128x128 .f32) (x6 : Vec Ideal S1x128 .f32) (τ : Fin 2) (c : Fin 128) :
    out0_7 (F := Ideal) x0 x1 x2 x3 x4 x5 x6 (ix3 τ (0 : Fin 1) c)
      = rowScore (slab x0 τ) (slab x1 τ) x2 x3 x4 x5 x6 c := by
  unfold out0_7
  refine (canon_rows _ _ τ c).trans ?_
  rcases (by omega : τ.val = 0 ∨ τ.val = 1) with h | h
  · obtain rfl : τ = 0 := Fin.ext h
    rw [if_neg (by decide)]
    exact row_at x0 x1 x2 x3 x4 x5 x6 0 c _ _ (ld_slab x0 0 _) (ld_slab x1 0 _)
  · obtain rfl : τ = 1 := Fin.ext h
    rw [if_pos h, pay1_eq_pay3, pay4_eq_pay2]
    exact row_at x0 x1 x2 x3 x4 x5 x6 1 c _ _ (ld_slab x0 1 _) (ld_slab x1 1 _)

end Cert.GraphConv.Body

end
-- ==== Proof.ArrayValue.lean ====
/-
  The kernel's result array as one function of the arrays the region finds.

  Grid point t handles graphs 2t and 2t + 1: its adjacency and feature blocks are rows 2t, 2t + 1 of the arrays, the four
  parameter blocks are the whole arrays at every point, and its output block is rows 2t, 2t + 1 of the 16 × 1 × 128 result.
  So what point t writes back is the block of one whole-array function (graph β's padded score row at column c), the
  eight blocks cover the result array, and the host's slice and reshape after the region read it at (β, 0, c), c < 10.
-/
import proofs.«150283_g37177236914914_cont_8to1_b_461_24_alg».proof.Proof.Gen.KernelIdeal.Frame
import proofs.«150283_g37177236914914_cont_8to1_b_461_24_alg».proof.Proof.OutBlock
import Idealize.ShloMosaic.Lib.StableHlo.Run
import Idealize.ShloMosaic.Lib.ValueLayout
import Idealize.ShloMosaic.Lib.Pipeline.Value

noncomputable section

namespace Cert.GraphConv.Arr

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.GraphConv Cert.GraphConv.Body

variable (m : (ℓ : Loc nD τ sig) → Buf (Elt Ideal) ℓ) (ρ : Dev nD → PrngReg)

/-- Graph `β`'s padded score row at column `c`, from the arrays as the region finds them. -/
def scoreOf (c : Dev nD) (β : Fin 16) (k : Fin 128) : EReal :=
  rowScore (fun y => (V m c main_arg1 : S16x1024x1024.Idx → EReal) (ix3 β (y 1) (y 2)))
    (fun y => (V m c main_arg0 : S16x1024x128.Idx → EReal) (ix3 β (y 1) (y 2)))
    (V m c main_arg2) (V m c main_arg3) (V m c main_v0) (V m c main_v3) (V m c main_v8) k

/-- The result array of the region: at (β, ·, c), graph `β`'s padded score at column `c`. -/
def regionOut (c : Dev nD) : S16x1x128.Idx → EReal := fun i =>
  scoreOf m c ⟨(i 0).val, (i 0).isLt⟩ ⟨(i 2).val, (i 2).isLt⟩

/-- The block indices of every window at every grid point: the three batched windows move with the point along the
    graph axis, the parameter windows stay at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val ∧ win0_7.index t (1 : Fin 3) = 0 ∧ win0_7.index t (2 : Fin 3) = 0) :=
  (by decide +kernel : ∀ t : Fin grid0.N, _)

/-! ## The input blocks of a point, as rows of the arrays -/

/-- Row τ of the adjacency block of point t is graph 2t + τ of the adjacency array. -/
theorem adj_at (c : Dev nD) (t : Fin cfg0.N) (τ' : Fin 2) (i j : Fin 1024) (hb : 2 * t.val + τ'.val < 16) :
    (iblk m c 0 t : S2x1024x1024.Idx → EReal) (ix3 τ' i j)
      = (V m c main_arg1 : S16x1024x1024.Idx → EReal) (ix3 ⟨2 * t.val + τ'.val, hb⟩ i j) := by
  obtain ⟨⟨h0, h1, h2⟩, -⟩ := idx_facts t
  unfold iblk
  rw [View.read_apply]
  show (V m c main_arg1 : S16x1024x1024.Idx → EReal) _ = _
  refine congrArg (V m c main_arg1 : S16x1024x1024.Idx → EReal) (funext fun a => Fin.ext ?_)
  match a with
  | ⟨0, _⟩ => show win0_0.index t (0 : Fin 3) * 2 + 1 * τ'.val = 2 * t.val + τ'.val; rw [h0]; omega
  | ⟨1, _⟩ => show win0_0.index t (1 : Fin 3) * 1024 + 1 * i.val = i.val; rw [h1]; omega
  | ⟨2, _⟩ => show win0_0.index t (2 : Fin 3) * 1024 + 1 * j.val = j.val; rw [h2]; omega

/-- Row τ of the feature block of point t is graph 2t + τ of the feature array. -/
theorem feat_at (c : Dev nD) (t : Fin cfg0.N) (τ' : Fin 2) (i : Fin 1024) (j : Fin 128) (hb : 2 * t.val + τ'.val < 16) :
    (iblk m c 1 t : S2x1024x128.Idx → EReal) (ix3 τ' i j)
      = (V m c main_arg0 : S16x1024x128.Idx → EReal) (ix3 ⟨2 * t.val + τ'.val, hb⟩ i j) := by
  obtain ⟨-, ⟨h0, h1, h2⟩, -⟩ := idx_facts t
  unfold iblk
  rw [View.read_apply]
  show (V m c main_arg0 : S16x1024x128.Idx → EReal) _ = _
  refine congrArg (V m c main_arg0 : S16x1024x128.Idx → EReal) (funext fun a => Fin.ext ?_)
  match a with
  | ⟨0, _⟩ => show win0_1.index t (0 : Fin 3) * 2 + 1 * τ'.val = 2 * t.val + τ'.val; rw [h0]; omega
  | ⟨1, _⟩ => show win0_1.index t (1 : Fin 3) * 1024 + 1 * i.val = i.val; rw [h1]; omega
  | ⟨2, _⟩ => show win0_1.index t (2 : Fin 3) * 128 + 1 * j.val = j.val; rw [h2]; omega

/-- The root-weight block is the whole array at every point. -/
theorem wroot_blk (c : Dev nD) (t : Fin cfg0.N) : (iblk m c 2 t : S128x128.Idx → EReal) = V m c main_arg2 := by
  obtain ⟨-, -, ⟨h0, h1⟩, -⟩ := idx_facts t
  funext y
  unfold iblk
  rw [View.read_apply]
  show (V m c main_arg2 : S128x128.Idx → EReal) _ = _
  refine congrArg (V m c main_arg2 : S128x128.Idx → EReal) (funext fun a => Fin.ext ?_)
  match a with
  | ⟨0, _⟩ => show win0_2.index t (0 : Fin 2) * 128 + 1 * (y 0).val = (y 0).val; rw [h0]; omega
  | ⟨1, _⟩ => show win0_2.index t (1 : Fin 2) * 128 + 1 * (y 1).val = (y 1).val; rw [h1]; omega

/-- The neighbour-weight block is the whole array at every point. -/
theorem wnbr_blk (c : Dev nD) (t : Fin cfg0.N) : (iblk m c 3 t : S128x128.Idx → EReal) = V m c main_arg3 := by
  obtain ⟨-, -, -, ⟨h0, h1⟩, -⟩ := idx_facts t
  funext y
  unfold iblk
  rw [View.read_apply]
  show (V m c main_arg3 : S128x128.Idx → EReal) _ = _
  refine congrArg (V m c main_arg3 : S128x128.Idx → EReal) (funext fun a => Fin.ext ?_)
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

/-- The bias-row block is the whole row at every point. -/
theorem bias_blk (c : Dev nD) (t : Fin cfg0.N) : (iblk m c 4 t : S1x128.Idx → EReal) = V m c main_v0 := by
  obtain ⟨-, -, -, -, ⟨h0, h1⟩, -⟩ := idx_facts t
  funext y
  unfold iblk
  rw [View.read_apply]
  show (V m c main_v0 : S1x128.Idx → EReal) _ = _
  refine congrArg (V m c main_v0 : S1x128.Idx → EReal) (funext fun a => Fin.ext ?_)
  match a with
  | ⟨0, _⟩ => show win0_4.index t (0 : Fin 2) * 1 + 1 * (y 0).val = (y 0).val; rw [h0]; omega
  | ⟨1, _⟩ => show win0_4.index t (1 : Fin 2) * 128 + 1 * (y 1).val = (y 1).val; rw [h1]; omega

/-- The padded classifier block is the whole matrix at every point. -/
theorem wcls_blk (c : Dev nD) (t : Fin cfg0.N) : (iblk m c 5 t : S128x128.Idx → EReal) = V m c main_v3 := by
  obtain ⟨-, -, -, -, -, ⟨h0, h1⟩, -⟩ := idx_facts t
  funext y
  unfold iblk
  rw [View.read_apply]
  show (V m c main_v3 : S128x128.Idx → EReal) _ = _
  refine congrArg (V m c main_v3 : S128x128.Idx → EReal) (funext fun a => Fin.ext ?_)
  match a with
  | ⟨0, _⟩ => show win0_5.index t (0 : Fin 2) * 128 + 1 * (y 0).val = (y 0).val; rw [h0]; omega
  | ⟨1, _⟩ => show win0_5.index t (1 : Fin 2) * 128 + 1 * (y 1).val = (y 1).val; rw [h1]; omega

/-- The padded classifier-bias block is the whole row at every point. -/
theorem bcls_blk (c : Dev nD) (t : Fin cfg0.N) : (iblk m c 6 t : S1x128.Idx → EReal) = V m c main_v8 := by
  obtain ⟨-, -, -, -, -, -, ⟨h0, h1⟩, -⟩ := idx_facts t
  funext y
  unfold iblk
  rw [View.read_apply]
  show (V m c main_v8 : S1x128.Idx → EReal) _ = _
  refine congrArg (V m c main_v8 : S1x128.Idx → EReal) (funext fun a => Fin.ext ?_)
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

/-! ## What a point writes back, and the array after the last point -/

/-- WHAT POINT `t` WRITES BACK is block `t` of `regionOut`: rows 2t and 2t + 1 are the score rows of graphs 2t and 2t + 1. -/
theorem flushed_eq (c : Dev nD) (t : Fin cfg0.N) :
    (dats m 0 c).flushed 7 t = ((cfg0.win 7).blk t).view.read (Elt Ideal) (regionOut m c) := by
  have ht : t.val < 8 := lt_of_lt_of_eq t.isLt N_0
  obtain ⟨-, -, -, -, -, -, -, ⟨h0, h1, h2⟩⟩ := idx_facts t
  show (cfg0.win 7).cut (grid0.coords t) ((dats m 0 c).after 7 t) = _
  rw [after0_7]
  funext j
  obtain ⟨τ', u, k, rfl⟩ : ∃ (τ' : Fin 2) (u : Fin 1) (k : Fin 128), j = ix3 τ' u k := ⟨j 0, j 1, j 2, eq_ix3 j⟩
  obtain rfl : u = 0 := Subsingleton.elim _ _
  have hβ : 2 * t.val + τ'.val < 16 := by have := τ'.isLt; omega
  rw [View.read_apply]
  show out0_7 (F := Ideal) (iblk m c 0 t) (iblk m c 1 t) (iblk m c 2 t) (iblk m c 3 t) (iblk m c 4 t) (iblk m c 5 t) (iblk m c 6 t)
      (ix3 τ' (0 : Fin 1) k) = regionOut m c (((cfg0.win 7).blk t).view.emb (ix3 τ' (0 : Fin 1) k))
  have e : regionOut m c (((cfg0.win 7).blk t).view.emb (ix3 τ' (0 : Fin 1) k)) = scoreOf m c ⟨2 * t.val + τ'.val, hβ⟩ k := by
    unfold regionOut
    have e0 : (⟨((((cfg0.win 7).blk t).view.emb (ix3 τ' (0 : Fin 1) k)) 0).val, ((((cfg0.win 7).blk t).view.emb (ix3 τ' (0 : Fin 1) k)) 0).isLt⟩ : Fin 16)
        = ⟨2 * t.val + τ'.val, hβ⟩ := Fin.ext (by
      show win0_7.index t (0 : Fin 3) * 2 + 1 * τ'.val = 2 * t.val + τ'.val; rw [h0]; omega)
    have e2 : (⟨((((cfg0.win 7).blk t).view.emb (ix3 τ' (0 : Fin 1) k)) 2).val, ((((cfg0.win 7).blk t).view.emb (ix3 τ' (0 : Fin 1) k)) 2).isLt⟩ : Fin 128)
        = k := Fin.ext (by
      show win0_7.index t (2 : Fin 3) * 128 + 1 * k.val = k.val; rw [h2]; omega)
    rw [e0, e2]
  have ea : slab (iblk m c 0 t : S2x1024x1024.Idx → EReal) τ'
      = fun y => (V m c main_arg1 : S16x1024x1024.Idx → EReal) (ix3 ⟨2 * t.val + τ'.val, hβ⟩ (y 1) (y 2)) :=
    funext fun y => adj_at m c t τ' (y 1) (y 2) hβ
  have ex : slab (iblk m c 1 t : S2x1024x128.Idx → EReal) τ'
      = fun y => (V m c main_arg0 : S16x1024x128.Idx → EReal) (ix3 ⟨2 * t.val + τ'.val, hβ⟩ (y 1) (y 2)) :=
    funext fun y => feat_at m c t τ' (y 1) (y 2) hβ
  refine (out_at _ _ _ _ _ _ _ τ' k).trans ?_
  rw [e]
  unfold scoreOf
  rw [ea, ex, wroot_blk m c t, wnbr_blk m c t, bias_blk m c t, wcls_blk m c t, bcls_blk m c t]

/-- An index of the result array is in point `t`'s block iff each coordinate is in the block's range on its axis. -/
theorem mem_blk (t : Fin cfg0.N) (i : S16x1x128.Idx) :
    i ∈ ((cfg0.win 7).blk t).view.set ↔ ∀ a : Fin 3, win0_7.index t a * S2x1x128.size a ≤ (i a).val
      ∧ (i a).val < win0_7.index t a * S2x1x128.size a + S2x1x128.size a := by
  show i ∈ ((View.whole main_v9).slice (win0_7.rect t)).set ↔ _
  rw [View.set_slice_whole, Rect.mem_set_unit]
  exact Iff.rfl

/-- Row β of the result array is in the block of point β / 2. -/
theorem cover (i : S16x1x128.Idx) : ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 128 := (i 2).isLt
  let t : Fin cfg0.N := ⟨(i 0).val / 2, by rw [show cfg0.N = 8 from N_0]; omega⟩
  have htv : t.val = (i 0).val / 2 := rfl
  obtain ⟨-, -, -, -, -, -, -, ⟨h0, h1, h2⟩⟩ := idx_facts t
  refine ⟨t, flush0_7 t, ?_⟩
  rw [mem_blk]
  intro a
  match a with
  | ⟨0, _⟩ =>
    show win0_7.index t (0 : Fin 3) * 2 ≤ (i 0).val ∧ (i 0).val < win0_7.index t (0 : Fin 3) * 2 + 2
    rw [h0, htv]; omega
  | ⟨1, _⟩ =>
    show win0_7.index t (1 : Fin 3) * 1 ≤ (i 1).val ∧ (i 1).val < win0_7.index t (1 : Fin 3) * 1 + 1
    rw [h1]; omega
  | ⟨2, _⟩ =>
    show win0_7.index t (2 : Fin 3) * 128 ≤ (i 2).val ∧ (i 2).val < win0_7.index t (2 : Fin 3) * 128 + 128
    rw [h2]; omega

/-- THE RESULT ARRAY OF THE REGION after the last point is `regionOut`. -/
theorem final (c : Dev nD) : (dats m 0 c).arrAt 7 cfg0.N = regionOut m c :=
  (dats m 0 c).arrAt_eq_of_cover 7 (regionOut m c) (fun t _ => flushed_eq m c t) cover

end Cert.GraphConv.Arr

end
-- ==== Proof.LibScatterSet.lean ====
/-
  The overwrite scatter read at an index.

  `Host.scatter d f x idx upd` is a left fold over the update indices in row-major order; each update index `j`
  replaces the element at its result index `d.resultIdx? j idx` (when there is one) by `f` of the old element and the
  update's. For the overwrite body `f = fun _ b => b` the fold read at a result index `i` is

  * the operand's element `x i` when no update index lands at `i` (`scatter_set_miss`), and
  * the update's element `upd j0` when `j0` is the one update index that lands at `i` (`scatter_set_hit`).

  The second part specialises this to a `16 × 64` window written into a `32 × 192` operand at a start index
  `(r0, c0)` read off a two-element index vector: the window's result indices are `(r0 + a, c0 + b)`
  (`resultIdx_window`), so the scatter is the update inside the window and the operand outside it
  (`scatter_window_apply`).
-/
import Idealize.ShloMosaic.PureOps
import Idealize.ShloMosaic.Lib.ValueIdx

namespace Cert.LibScatterSet

open Idealize.ShloMosaic Idealize.ShloMosaic.ValueIdx

/-! ## Part 1: the fold of an overwrite scatter at an index, for any shapes and dimension numbers -/

section General
variable {α : Type} {s si u : Shape} {w : Nat}

/-- One step of the overwrite scatter's fold: update index number `n` (in row-major order) replaces the element at its
    result index, when it has one, by the update's element. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The overwrite scatter is the left fold of `step` over all update index numbers, from the operand. -/
theorem scatter_eq_foldl (d : ScatterDims s si u) (x : s.Idx → α) (idx : IVec si w) (upd : u.Idx → α) :
    Host.scatter d (fun _ b => b) x idx upd = (List.finRange u.numel).foldl (step d idx upd) x := rfl

/-- A step whose update index does not land at `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hres : d.resultIdx? (u.rowMajor.symm n) idx with
  | none => rfl
  | some i1 =>
    have hne : i ≠ i1 := fun e => h (by rw [hres, e])
    exact if_neg hne

/-- A step whose update index lands at `i` puts the update's element there. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- Folding over update index numbers none of which lands at `i` leaves the element at `i` as it was. -/
theorem foldl_miss (d : ScatterDims s si u) (idx : IVec si w) (upd : u.Idx → α) (i : s.Idx) (L : List (Fin u.numel))
    (r : s.Idx → α) (h : ∀ n ∈ L, d.resultIdx? (u.rowMajor.symm n) idx ≠ some i) :
    (L.foldl (step d idx upd) r) i = r i := by
  induction L generalizing r with
  | nil => rfl
  | cons n L ih =>
    rw [List.foldl_cons, ih _ (fun m hm => h m (List.mem_cons_of_mem _ hm)),
      step_miss d idx upd r n i (h n List.mem_cons_self)]

/-- Folding over a list without repeats in which `n0` is the one update index number that lands at `i` leaves the
    update's element of `n0` at `i`: the step of `n0` writes it and no later step touches `i`. -/
theorem foldl_hit (d : ScatterDims s si u) (idx : IVec si w) (upd : u.Idx → α) (i : s.Idx) (n0 : Fin u.numel)
    (h0 : d.resultIdx? (u.rowMajor.symm n0) idx = some i) (L : List (Fin u.numel)) (hnd : L.Nodup) (hmem : n0 ∈ L)
    (huniq : ∀ n ∈ L, d.resultIdx? (u.rowMajor.symm n) idx = some i → n = n0) (r : s.Idx → α) :
    (L.foldl (step d idx upd) r) i = upd (u.rowMajor.symm n0) := by
  induction L generalizing r with
  | nil => exact absurd hmem List.not_mem_nil
  | cons n L ih =>
    rw [List.foldl_cons]
    rw [List.nodup_cons] at hnd
    by_cases hn : n = n0
    · subst hn
      rw [foldl_miss d idx upd i L _ (fun m hm e => hnd.1 (huniq m (List.mem_cons_of_mem _ hm) e ▸ hm)),
        step_hit d idx upd r n i h0]
    · have hm : n0 ∈ L := by
        rcases List.mem_cons.1 hmem with e | e
        · exact absurd e.symm hn
        · exact e
      exact ih hnd.2 hm (fun m hm' => huniq m (List.mem_cons_of_mem _ hm')) _

/-- THE OVERWRITE SCATTER AT AN INDEX NO UPDATE LANDS AT: the operand's element. -/
theorem scatter_set_miss (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_miss d idx upd i _ x (fun n _ => h _)

/-- THE OVERWRITE SCATTER AT AN INDEX EXACTLY ONE UPDATE LANDS AT: that update's element. -/
theorem scatter_set_hit (d : ScatterDims s si u) (x : s.Idx → α) (idx : IVec si w) (upd : u.Idx → α) (i : s.Idx)
    (j0 : u.Idx) (h0 : d.resultIdx? j0 idx = some i) (huniq : ∀ j, d.resultIdx? j idx = some i → j = j0) :
    Host.scatter d (fun _ b => b) x idx upd i = upd j0 := by
  rw [scatter_eq_foldl]
  have h := foldl_hit d idx upd i (u.rowMajor j0) (by rw [Equiv.symm_apply_apply]; exact h0) (List.finRange u.numel)
    (List.nodup_finRange _) (List.mem_finRange _)
    (fun n _ hn => by rw [← huniq _ hn, Equiv.apply_symm_apply]) x
  rw [Equiv.symm_apply_apply] at h
  exact h

end General

/-! ## Part 2: a `16 × 64` window written into a `32 × 192` operand at a start index read off a two-element vector -/

section Window

/-- The operand's shape. -/
abbrev S32x192 : Shape := ⟨2, ![32, 192]⟩
/-- The index vector's shape: the two components of one start index. -/
abbrev S2 : Shape := ⟨1, ![2]⟩
/-- The update's shape: one whole window. -/
abbrev S16x64 : Shape := ⟨2, ![16, 64]⟩
/-- The shape of one component of the start index. -/
abbrev S1 : Shape := ⟨1, ![1]⟩
/-- The scalar shape. -/
abbrev S_ : Shape := ⟨0, ![]⟩

/-- The dimension numbers of the window scatter: both update axes are window axes, no operand axis is inserted,
    component `k` of the start index is for operand axis `k`, and the index vector is the indices' one axis. -/
abbrev dims (hwf : ScatterDims.WF S32x192 S2 S16x64 [0, 1] [] [0, 1] 0) : ScatterDims S32x192 S2 S16x64 :=
  { updateWindowDims := [0, 1], insertedWindowDims := [], scatterDimsToOperandDims := [0, 1], indexVectorDim := 0,
    wf := hwf }

/-- Two rank-2 indices with equal coordinates are equal. -/
theorem ix2_congr {n0 n1 : Nat} {a a' : Fin n0} {b b' : Fin n1} (ha : a = a') (hb : b = b') : ix2 a b = ix2 a' b' := by
  subst ha hb; rfl

section Concat
variable {α : Type}

/-- A concatenation of two one-element vectors reads the first at position `0`. -/
theorem concat_zero (a b : S1.Idx → α) (hc : Shape.Concatenates [S1, S1] S2 0) :
    concatenate S2 0 [⟨S1, a⟩, ⟨S1, b⟩] hc (ix1 0) = a (ix1 0) := by
  change a _ = a _
  congr 1
  funext b1
  match b1 with
  | ⟨0, _⟩ => rfl

/-- A concatenation of two one-element vectors reads the second at position `1`. -/
theorem concat_one (a b : S1.Idx → α) (hc : Shape.Concatenates [S1, S1] S2 0) :
    concatenate S2 0 [⟨S1, a⟩, ⟨S1, b⟩] hc (ix1 1) = b (ix1 0) := by
  change b _ = b _
  congr 1
  funext b1
  match b1 with
  | ⟨0, _⟩ => rfl

end Concat

/-- The index vector of two broadcast scalar constants `v0`, `v1` reads `v0` at position `0`. -/
theorem idx_zero (v0 v1 : BitVec 32) (hb : S_.BroadcastsInDim S1 (![] : Fin 0 → Fin S1.rank))
    (hc : Shape.Concatenates [S1, S1] S2 0) :
    (concatenate S2 0 [⟨S1, broadcastInDim S1 ![] hb (constantI S_ 32 v0)⟩,
      ⟨S1, broadcastInDim S1 ![] hb (constantI S_ 32 v1)⟩] hc : IVec S2 32) (ix1 0) = v0 := rfl

/-- The index vector of two broadcast scalar constants `v0`, `v1` reads `v1` at position `1`. -/
theorem idx_one (v0 v1 : BitVec 32) (hb : S_.BroadcastsInDim S1 (![] : Fin 0 → Fin S1.rank))
    (hc : Shape.Concatenates [S1, S1] S2 0) :
    (concatenate S2 0 [⟨S1, broadcastInDim S1 ![] hb (constantI S_ 32 v0)⟩,
      ⟨S1, broadcastInDim S1 ![] hb (constantI S_ 32 v1)⟩] hc : IVec S2 32) (ix1 1) = v1 := rfl

section Read
variable {w : Nat}

/-- The start of the window on the operand's row axis is the index vector's component `0`, read signed. -/
theorem start_zero (hwf : ScatterDims.WF S32x192 S2 S16x64 [0, 1] [] [0, 1] 0) (j : S16x64.Idx) (idx : IVec S2 w) :
    (dims hwf).start j idx 0 = (idx (ix1 0)).toInt := by
  unfold ScatterDims.start
  rw [dif_pos (show (0 : Fin S32x192.rank) ∈ ([0, 1] : List (Fin S32x192.rank)) from by decide)]
  congr 2
  funext b
  match b with
  | ⟨0, _⟩ => rfl

/-- The start of the window on the operand's column axis is the index vector's component `1`, read signed. -/
theorem start_one (hwf : ScatterDims.WF S32x192 S2 S16x64 [0, 1] [] [0, 1] 0) (j : S16x64.Idx) (idx : IVec S2 w) :
    (dims hwf).start j idx 1 = (idx (ix1 1)).toInt := by
  unfold ScatterDims.start
  rw [dif_pos (show (1 : Fin S32x192.rank) ∈ ([0, 1] : List (Fin S32x192.rank)) from by decide)]
  congr 2
  funext b
  match b with
  | ⟨0, _⟩ => rfl

/-- The window coordinate on the operand's row axis is the update index's row. -/
theorem window_zero (hwf : ScatterDims.WF S32x192 S2 S16x64 [0, 1] [] [0, 1] 0) (j : S16x64.Idx) :
    (dims hwf).window j 0 = (j 0).val := by
  unfold ScatterDims.window
  rw [dif_pos (show (0 : Fin S32x192.rank) ∈ S32x192.kept [] from by decide)]
  rfl

/-- The window coordinate on the operand's column axis is the update index's column. -/
theorem window_one (hwf : ScatterDims.WF S32x192 S2 S16x64 [0, 1] [] [0, 1] 0) (j : S16x64.Idx) :
    (dims hwf).window j 1 = (j 1).val := by
  unfold ScatterDims.window
  rw [dif_pos (show (1 : Fin S32x192.rank) ∈ S32x192.kept [] from by decide)]
  rfl

end Read

section Apply
variable {w : Nat}

/-- WHERE THE WINDOW LANDS: with the start index `(r0, c0)` keeping the whole window inside the operand, update index
    `j` lands at `(r0 + j 0, c0 + j 1)`. -/
theorem resultIdx_window (hwf : ScatterDims.WF S32x192 S2 S16x64 [0, 1] [] [0, 1] 0) (idx : IVec S2 w) (r0 c0 : Nat)
    (h0 : (idx (ix1 0)).toInt = r0) (h1 : (idx (ix1 1)).toInt = c0) (hr : r0 + 16 ≤ 32) (hc : c0 + 64 ≤ 192)
    (j : S16x64.Idx) :
    (dims hwf).resultIdx? j idx
      = some (ix2 (⟨r0 + (j 0).val, by have := idx2_lt0 j; omega⟩ : Fin 32)
          (⟨c0 + (j 1).val, by have := idx2_lt1 j; omega⟩ : Fin 192)) := by
  have hs0 : (dims hwf).start j idx 0 = r0 := (start_zero hwf j idx).trans h0
  have hs1 : (dims hwf).start j idx 1 = c0 := (start_one hwf j idx).trans h1
  have hw0 := window_zero hwf j
  have hw1 := window_one hwf j
  have hj0 := idx2_lt0 j
  have hj1 := idx2_lt1 j
  have hz0 : S32x192.size 0 = 32 := rfl
  have hz1 : S32x192.size 1 = 192 := rfl
  have H : ∀ a : Fin S32x192.rank, 0 ≤ (dims hwf).start j idx a + ((dims hwf).window j a : Int) ∧
      (dims hwf).start j idx a + ((dims hwf).window j a : Int) < (S32x192.size a : Int) :=
    Fin.forall_fin_two.2 ⟨by rw [hs0, hw0, hz0]; omega, by rw [hs1, hw1, hz1]; omega⟩
  unfold ScatterDims.resultIdx?
  rw [dif_pos H]
  congr 1
  funext a
  match a with
  | ⟨0, _⟩ =>
    refine Fin.ext ?_
    show ((dims hwf).start j idx 0 + ((dims hwf).window j 0 : Int)).toNat = r0 + (j 0).val
    rw [hs0, hw0]; omega
  | ⟨1, _⟩ =>
    refine Fin.ext ?_
    show ((dims hwf).start j idx 1 + ((dims hwf).window j 1 : Int)).toNat = c0 + (j 1).val
    rw [hs1, hw1]; omega

/-- THE WINDOW SCATTER AT AN INDEX: with the start index `(r0, c0)` keeping the whole window inside the operand, the
    overwrite scatter reads the update at `(k - r0, c - c0)` inside the window `[r0, r0 + 16) × [c0, c0 + 64)` and the
    operand outside it. -/
theorem scatter_window_apply {α : Type} (hwf : ScatterDims.WF S32x192 S2 S16x64 [0, 1] [] [0, 1] 0) (idx : IVec S2 w)
    (r0 c0 : Nat) (h0 : (idx (ix1 0)).toInt = r0) (h1 : (idx (ix1 1)).toInt = c0) (hr : r0 + 16 ≤ 32)
    (hc : c0 + 64 ≤ 192) (x : S32x192.Idx → α) (upd : S16x64.Idx → α) (k : Fin 32) (c : Fin 192) :
    Host.scatter (dims hwf) (fun _ b => b) x idx upd (ix2 k c)
      = if h : (r0 ≤ k.val ∧ k.val < r0 + 16) ∧ (c0 ≤ c.val ∧ c.val < c0 + 64) then
          upd (ix2 (⟨k.val - r0, by omega⟩ : Fin 16) (⟨c.val - c0, by omega⟩ : Fin 64))
        else x (ix2 k c) := by
  by_cases h : (r0 ≤ k.val ∧ k.val < r0 + 16) ∧ (c0 ≤ c.val ∧ c.val < c0 + 64)
  · rw [dif_pos h]
    refine scatter_set_hit (dims hwf) x idx upd (ix2 k c)
      (ix2 (⟨k.val - r0, by omega⟩ : Fin 16) (⟨c.val - c0, by omega⟩ : Fin 64)) ?_ ?_
    · rw [resultIdx_window hwf idx r0 c0 h0 h1 hr hc]
      exact congrArg some (ix2_congr (Fin.ext (by show r0 + (k.val - r0) = k.val; omega))
        (Fin.ext (by show c0 + (c.val - c0) = c.val; omega)))
    · intro j hj
      rw [resultIdx_window hwf idx r0 c0 h0 h1 hr hc] at hj
      have e := Option.some.inj hj
      have e0 : r0 + (j 0).val = k.val := congrArg (fun f : S32x192.Idx => (f 0).val) e
      have e1 : c0 + (j 1).val = c.val := congrArg (fun f : S32x192.Idx => (f 1).val) e
      rw [eq_ix2 j]
      exact ix2_congr (Fin.ext (by show (j 0).val = k.val - r0; omega)) (Fin.ext (by show (j 1).val = c.val - c0; omega))
  · rw [dif_neg h]
    refine scatter_set_miss (dims hwf) x idx upd (ix2 k c) (fun j hj => h ?_)
    rw [resultIdx_window hwf idx r0 c0 h0 h1 hr hc] at hj
    have e := Option.some.inj hj
    have e0 : r0 + (j 0).val = k.val := congrArg (fun f : S32x192.Idx => (f 0).val) e
    have e1 : c0 + (j 1).val = c.val := congrArg (fun f : S32x192.Idx => (f 1).val) e
    have hj0 := idx2_lt0 j
    have hj1 := idx2_lt1 j
    omega

end Apply

section Records
variable {w : Nat}

/-- The window's result indices, for any record with these dimension numbers (whatever proof of its conditions it
    carries). -/
theorem resultIdx_window_of_eq (d : ScatterDims S32x192 S2 S16x64) (huw : d.updateWindowDims = [0, 1])
    (hiw : d.insertedWindowDims = []) (hsd : d.scatterDimsToOperandDims = [0, 1]) (hiv : d.indexVectorDim = 0)
    (idx : IVec S2 w) (r0 c0 : Nat) (h0 : (idx (ix1 0)).toInt = r0) (h1 : (idx (ix1 1)).toInt = c0)
    (hr : r0 + 16 ≤ 32) (hc : c0 + 64 ≤ 192) (j : S16x64.Idx) :
    d.resultIdx? j idx
      = some (ix2 (⟨r0 + (j 0).val, by have := idx2_lt0 j; omega⟩ : Fin 32)
          (⟨c0 + (j 1).val, by have := idx2_lt1 j; omega⟩ : Fin 192)) := by
  obtain ⟨uw, iw, sd, iv, wf⟩ := d
  dsimp only at huw hiw hsd hiv
  subst huw hiw hsd hiv
  exact resultIdx_window wf idx r0 c0 h0 h1 hr hc j

/-- The window scatter at an index, for any record with these dimension numbers (whatever proof of its conditions it
    carries). -/
theorem scatter_window_apply_of_eq {α : Type} (d : ScatterDims S32x192 S2 S16x64) (huw : d.updateWindowDims = [0, 1])
    (hiw : d.insertedWindowDims = []) (hsd : d.scatterDimsToOperandDims = [0, 1]) (hiv : d.indexVectorDim = 0)
    (idx : IVec S2 w) (r0 c0 : Nat) (h0 : (idx (ix1 0)).toInt = r0) (h1 : (idx (ix1 1)).toInt = c0)
    (hr : r0 + 16 ≤ 32) (hc : c0 + 64 ≤ 192) (x : S32x192.Idx → α) (upd : S16x64.Idx → α) (k : Fin 32) (c : Fin 192) :
    Host.scatter d (fun _ b => b) x idx upd (ix2 k c)
      = if h : (r0 ≤ k.val ∧ k.val < r0 + 16) ∧ (c0 ≤ c.val ∧ c.val < c0 + 64) then
          upd (ix2 (⟨k.val - r0, by omega⟩ : Fin 16) (⟨c.val - c0, by omega⟩ : Fin 64))
        else x (ix2 k c) := by
  obtain ⟨uw, iw, sd, iv, wf⟩ := d
  dsimp only at huw hiw hsd hiv
  subst huw hiw hsd hiv
  exact scatter_window_apply wf idx r0 c0 h0 h1 hr hc x upd k c

/-- THE WINDOW SCATTER AT A CONSTANT START INDEX, AT AN INDEX: the index vector is the concatenation of the two
    broadcast scalar constants `v0`, `v1`, whose signed values `r0`, `c0` keep the whole window inside the
    operand. -/
theorem scatter_const_window_apply {α : Type} (d : ScatterDims S32x192 S2 S16x64) (huw : d.updateWindowDims = [0, 1])
    (hiw : d.insertedWindowDims = []) (hsd : d.scatterDimsToOperandDims = [0, 1]) (hiv : d.indexVectorDim = 0)
    (v0 v1 : BitVec 32) (hb : S_.BroadcastsInDim S1 (![] : Fin 0 → Fin S1.rank))
    (hcc : Shape.Concatenates [S1, S1] S2 0) (r0 c0 : Nat) (h0 : v0.toInt = r0) (h1 : v1.toInt = c0)
    (hr : r0 + 16 ≤ 32) (hc : c0 + 64 ≤ 192) (x : S32x192.Idx → α) (upd : S16x64.Idx → α) (k : Fin 32) (c : Fin 192) :
    Host.scatter d (fun _ b => b) x
        (concatenate S2 0 [⟨S1, broadcastInDim S1 ![] hb (constantI S_ 32 v0)⟩,
          ⟨S1, broadcastInDim S1 ![] hb (constantI S_ 32 v1)⟩] hcc : IVec S2 32) upd (ix2 k c)
      = if h : (r0 ≤ k.val ∧ k.val < r0 + 16) ∧ (c0 ≤ c.val ∧ c.val < c0 + 64) then
          upd (ix2 (⟨k.val - r0, by omega⟩ : Fin 16) (⟨c.val - c0, by omega⟩ : Fin 64))
        else x (ix2 k c) :=
  scatter_window_apply_of_eq d huw hiw hsd hiv _ r0 c0
    ((congrArg BitVec.toInt (idx_zero v0 v1 hb hcc)).trans h0) ((congrArg BitVec.toInt (idx_one v0 v1 hb hcc)).trans h1)
    hr hc x upd k c

end Records

end Window

end Cert.LibScatterSet
-- ==== Proof.ScatterReads.lean ====
/-
  Two reads of an overwrite scatter whose start indices are all zero, at an index an update lands on.

  When every entry of the scatter indices is the zero word, every window starts at `0` on every operand axis
  (`start_of_zero_idx`), so update index `j` lands at its window coordinates alone. Two shapes are worked out:

  * a `128 × 10` update written into a `128 × 128` operand, both update axes window axes and no operand axis inserted:
    update index `(a, b)` lands at `(a, b)` (`resultIdx_columns`), so the scatter read at `(k, c)` with `c < 10` is
    the update at `(k, c)` (`scatter_columns_apply`);
  * a `10` update written into a `1 × 128` operand, the update's axis the window axis and operand axis `0` inserted:
    update index `b` lands at `(0, b)` (`resultIdx_row`), so the scatter read at `(0, c)` with `c < 10` is the update
    at `c` (`scatter_row_apply`).

  In both the update index that lands at the read index is the only one that does, because the map from update indices
  to result indices is injective; the read is then the overwrite scatter's value at an index exactly one update lands at.
-/
import Idealize.ShloMosaic.PureOps
import Idealize.ShloMosaic.Lib.ValueIdx
import proofs.«150283_g37177236914914_cont_8to1_b_461_24_alg».proof.Proof.LibScatterSet

namespace Cert.ScatterReads

open Idealize.ShloMosaic Idealize.ShloMosaic.ValueIdx Cert.LibScatterSet

/-! ## Part 1: all-zero scatter indices start every window at zero, for any shapes and dimension numbers -/

/-- If every entry of the scatter indices is the zero word, the window of every update index starts at `0` on every
    operand axis: on an axis the map names the start is a zero word read signed, on any other axis it is `0` already. -/
theorem start_of_zero_idx {s si u : Shape} {w : Nat} (d : ScatterDims s si u) (j : u.Idx) (idx : IVec si w)
    (hz : ∀ i, idx i = 0#w) (a : Fin s.rank) : d.start j idx a = 0 := by
  unfold ScatterDims.start
  split
  · rw [hz, BitVec.toInt_zero]
  · rfl

/-- A rank-1 index's coordinate is below the extent, written as `n` itself so that `omega` can use it. -/
theorem idx1_lt {n : Nat} (j : (⟨1, ![n]⟩ : Shape).Idx) : (j 0).val < n := (j 0).isLt

/-! ## Part 2: a `128 × 10` update written into the first `10` columns of a `128 × 128` operand -/

section Columns

/-- The operand's shape. -/
abbrev S128x128 : Shape := ⟨2, ![128, 128]⟩
/-- The scatter indices' shape: the one component of one start index. -/
abbrev S1 : Shape := ⟨1, ![1]⟩
/-- The update's shape. -/
abbrev S128x10 : Shape := ⟨2, ![128, 10]⟩

/-- The dimension numbers: both update axes are window axes, no operand axis is inserted, the one component of the
    start index is for operand axis `1`, and the index vector is the indices' one axis. -/
abbrev columnsDims (hwf : ScatterDims.WF S128x128 S1 S128x10 [0, 1] [] [1] 0) : ScatterDims S128x128 S1 S128x10 :=
  { updateWindowDims := [0, 1], insertedWindowDims := [], scatterDimsToOperandDims := [1], indexVectorDim := 0,
    wf := hwf }

/-- The window coordinate on the operand's row axis is the update index's row. -/
theorem columns_window_zero (hwf : ScatterDims.WF S128x128 S1 S128x10 [0, 1] [] [1] 0) (j : S128x10.Idx) :
    (columnsDims hwf).window j 0 = (j 0).val := by
  unfold ScatterDims.window
  rw [dif_pos (show (0 : Fin S128x128.rank) ∈ S128x128.kept [] from by decide)]
  rfl

/-- The window coordinate on the operand's column axis is the update index's column. -/
theorem columns_window_one (hwf : ScatterDims.WF S128x128 S1 S128x10 [0, 1] [] [1] 0) (j : S128x10.Idx) :
    (columnsDims hwf).window j 1 = (j 1).val := by
  unfold ScatterDims.window
  rw [dif_pos (show (1 : Fin S128x128.rank) ∈ S128x128.kept [] from by decide)]
  rfl

/-- WHERE THE COLUMNS LAND: with all-zero scatter indices, update index `j` lands at `(j 0, j 1)`. -/
theorem resultIdx_columns {w : Nat} (hwf : ScatterDims.WF S128x128 S1 S128x10 [0, 1] [] [1] 0) (idx : IVec S1 w)
    (hz : ∀ i, idx i = 0#w) (j : S128x10.Idx) :
    (columnsDims hwf).resultIdx? j idx
      = some (ix2 (⟨(j 0).val, idx2_lt0 j⟩ : Fin 128)
          (⟨(j 1).val, by have := idx2_lt1 j; omega⟩ : Fin 128)) := by
  have hs0 : (columnsDims hwf).start j idx 0 = 0 := start_of_zero_idx (columnsDims hwf) j idx hz 0
  have hs1 : (columnsDims hwf).start j idx 1 = 0 := start_of_zero_idx (columnsDims hwf) j idx hz 1
  have hw0 := columns_window_zero hwf j
  have hw1 := columns_window_one hwf j
  have hj0 := idx2_lt0 j
  have hj1 := idx2_lt1 j
  have hz0 : S128x128.size 0 = 128 := rfl
  have hz1 : S128x128.size 1 = 128 := rfl
  have H : ∀ a : Fin S128x128.rank, 0 ≤ (columnsDims hwf).start j idx a + ((columnsDims hwf).window j a : Int) ∧
      (columnsDims hwf).start j idx a + ((columnsDims hwf).window j a : Int) < (S128x128.size a : Int) :=
    Fin.forall_fin_two.2 ⟨by rw [hs0, hw0, hz0]; omega, by rw [hs1, hw1, hz1]; omega⟩
  unfold ScatterDims.resultIdx?
  rw [dif_pos H]
  congr 1
  funext a
  match a with
  | ⟨0, _⟩ =>
    refine Fin.ext ?_
    show ((columnsDims hwf).start j idx 0 + ((columnsDims hwf).window j 0 : Int)).toNat = (j 0).val
    rw [hs0, hw0]; omega
  | ⟨1, _⟩ =>
    refine Fin.ext ?_
    show ((columnsDims hwf).start j idx 1 + ((columnsDims hwf).window j 1 : Int)).toNat = (j 1).val
    rw [hs1, hw1]; omega

/-- The columns scatter read at `(k, c)` with `c < 10`, for the record built from the dimension numbers. -/
theorem scatter_columns_apply_dims {α : Type} {w : Nat} (hwf : ScatterDims.WF S128x128 S1 S128x10 [0, 1] [] [1] 0)
    (idx : IVec S1 w) (hz : ∀ i, idx i = 0#w) (x : S128x128.Idx → α) (upd : S128x10.Idx → α) (k : Fin 128)
    (c : Fin 10) :
    Host.scatter (columnsDims hwf) (fun _ b => b) x idx upd (ix2 k (⟨c.val, by omega⟩ : Fin 128)) = upd (ix2 k c) := by
  refine scatter_set_hit (columnsDims hwf) x idx upd (ix2 k (⟨c.val, by omega⟩ : Fin 128)) (ix2 k c) ?_ ?_
  · rw [resultIdx_columns hwf idx hz]
  · intro j hj
    rw [resultIdx_columns hwf idx hz] at hj
    have e := Option.some.inj hj
    have e0 : (j 0).val = k.val := congrArg (fun f : S128x128.Idx => (f 0).val) e
    have e1 : (j 1).val = c.val := congrArg (fun f : S128x128.Idx => (f 1).val) e
    rw [eq_ix2 j]
    exact ix2_congr (Fin.ext e0) (Fin.ext e1)

end Columns

/-- THE COLUMNS SCATTER AT AN INDEX THE UPDATE LANDS ON: a `128 × 10` update written by an overwrite scatter with
    all-zero scatter indices into a `128 × 128` operand reads, at `(k, c)` with `c < 10`, the update at `(k, c)`; for any
    record with these dimension numbers (whatever proof of its conditions it carries). -/
theorem scatter_columns_apply {α : Type} (d : ScatterDims ⟨2, ![128, 128]⟩ ⟨1, ![1]⟩ ⟨2, ![128, 10]⟩)
    (huw : d.updateWindowDims = [0, 1]) (hiw : d.insertedWindowDims = []) (hsd : d.scatterDimsToOperandDims = [1])
    (hiv : d.indexVectorDim = 0)
    (idx : IVec ⟨1, ![1]⟩ 32) (hz : ∀ i, idx i = 0#32)
    (x : (⟨2, ![128, 128]⟩ : Shape).Idx → α) (upd : (⟨2, ![128, 10]⟩ : Shape).Idx → α) (k : Fin 128) (c : Fin 10) :
    Host.scatter d (fun _ b => b) x idx upd (ValueIdx.ix2 k (⟨c.val, by omega⟩ : Fin 128))
      = upd (ValueIdx.ix2 k c) := by
  obtain ⟨uw, iw, sd, iv, wf⟩ := d
  dsimp only at huw hiw hsd hiv
  subst huw hiw hsd hiv
  exact scatter_columns_apply_dims wf idx hz x upd k c

/-! ## Part 3: a `10` update written into the first `10` entries of the one row of a `1 × 128` operand -/

section Row

/-- The operand's shape. -/
abbrev S1x128 : Shape := ⟨2, ![1, 128]⟩
/-- The scatter indices' shape: the two components of one start index. -/
abbrev S2 : Shape := ⟨1, ![2]⟩
/-- The update's shape. -/
abbrev S10 : Shape := ⟨1, ![10]⟩

/-- The dimension numbers: the update's one axis is the window axis, operand axis `0` is inserted, component `k` of
    the start index is for operand axis `k`, and the index vector is the indices' one axis. -/
abbrev rowDims (hwf : ScatterDims.WF S1x128 S2 S10 [0] [0] [0, 1] 0) : ScatterDims S1x128 S2 S10 :=
  { updateWindowDims := [0], insertedWindowDims := [0], scatterDimsToOperandDims := [0, 1], indexVectorDim := 0,
    wf := hwf }

/-- The window coordinate on the operand's inserted row axis is `0`. -/
theorem row_window_zero (hwf : ScatterDims.WF S1x128 S2 S10 [0] [0] [0, 1] 0) (j : S10.Idx) :
    (rowDims hwf).window j 0 = 0 := by
  unfold ScatterDims.window
  rw [dif_neg (show ¬ (0 : Fin S1x128.rank) ∈ S1x128.kept [0] from by decide)]

/-- The window coordinate on the operand's column axis is the update index's one coordinate. -/
theorem row_window_one (hwf : ScatterDims.WF S1x128 S2 S10 [0] [0] [0, 1] 0) (j : S10.Idx) :
    (rowDims hwf).window j 1 = (j 0).val := by
  unfold ScatterDims.window
  rw [dif_pos (show (1 : Fin S1x128.rank) ∈ S1x128.kept [0] from by decide)]
  rfl

/-- WHERE THE ROW LANDS: with all-zero scatter indices, update index `j` lands at `(0, j 0)`. -/
theorem resultIdx_row {w : Nat} (hwf : ScatterDims.WF S1x128 S2 S10 [0] [0] [0, 1] 0) (idx : IVec S2 w)
    (hz : ∀ i, idx i = 0#w) (j : S10.Idx) :
    (rowDims hwf).resultIdx? j idx
      = some (ix2 (0 : Fin 1) (⟨(j 0).val, by have := idx1_lt j; omega⟩ : Fin 128)) := by
  have hs0 : (rowDims hwf).start j idx 0 = 0 := start_of_zero_idx (rowDims hwf) j idx hz 0
  have hs1 : (rowDims hwf).start j idx 1 = 0 := start_of_zero_idx (rowDims hwf) j idx hz 1
  have hw0 := row_window_zero hwf j
  have hw1 := row_window_one hwf j
  have hj0 := idx1_lt j
  have hz0 : S1x128.size 0 = 1 := rfl
  have hz1 : S1x128.size 1 = 128 := rfl
  have H : ∀ a : Fin S1x128.rank, 0 ≤ (rowDims hwf).start j idx a + ((rowDims hwf).window j a : Int) ∧
      (rowDims hwf).start j idx a + ((rowDims hwf).window j a : Int) < (S1x128.size a : Int) :=
    Fin.forall_fin_two.2 ⟨by rw [hs0, hw0, hz0]; omega, by rw [hs1, hw1, hz1]; omega⟩
  unfold ScatterDims.resultIdx?
  rw [dif_pos H]
  congr 1
  funext a
  match a with
  | ⟨0, _⟩ =>
    refine Fin.ext ?_
    show ((rowDims hwf).start j idx 0 + ((rowDims hwf).window j 0 : Int)).toNat = 0
    rw [hs0, hw0]; omega
  | ⟨1, _⟩ =>
    refine Fin.ext ?_
    show ((rowDims hwf).start j idx 1 + ((rowDims hwf).window j 1 : Int)).toNat = (j 0).val
    rw [hs1, hw1]; omega

/-- Two rank-1 indices with equal coordinates are equal. -/
theorem ix1_congr {n : Nat} {a a' : Fin n} (ha : a = a') : ix1 a = ix1 a' := by
  subst ha; rfl

/-- The row scatter read at `(0, c)` with `c < 10`, for the record built from the dimension numbers. -/
theorem scatter_row_apply_dims {α : Type} {w : Nat} (hwf : ScatterDims.WF S1x128 S2 S10 [0] [0] [0, 1] 0)
    (idx : IVec S2 w) (hz : ∀ i, idx i = 0#w) (x : S1x128.Idx → α) (upd : S10.Idx → α) (c : Fin 10) :
    Host.scatter (rowDims hwf) (fun _ b => b) x idx upd (ix2 (0 : Fin 1) (⟨c.val, by omega⟩ : Fin 128))
      = upd (ix1 c) := by
  refine scatter_set_hit (rowDims hwf) x idx upd (ix2 (0 : Fin 1) (⟨c.val, by omega⟩ : Fin 128)) (ix1 c) ?_ ?_
  · rw [resultIdx_row hwf idx hz]
  · intro j hj
    rw [resultIdx_row hwf idx hz] at hj
    have e := Option.some.inj hj
    have e1 : (j 0).val = c.val := congrArg (fun f : S1x128.Idx => (f 1).val) e
    rw [eq_ix1 j]
    exact ix1_congr (Fin.ext e1)

end Row

/-- THE ROW SCATTER AT AN INDEX THE UPDATE LANDS ON: a `10` update written by an overwrite scatter with all-zero
    scatter indices into the one row of a `1 × 128` operand reads, at `(0, c)` with `c < 10`, the update at `c`; for any
    record with these dimension numbers (whatever proof of its conditions it carries). -/
theorem scatter_row_apply {α : Type} (d : ScatterDims ⟨2, ![1, 128]⟩ ⟨1, ![2]⟩ ⟨1, ![10]⟩)
    (huw : d.updateWindowDims = [0]) (hiw : d.insertedWindowDims = [0]) (hsd : d.scatterDimsToOperandDims = [0, 1])
    (hiv : d.indexVectorDim = 0)
    (idx : IVec ⟨1, ![2]⟩ 32) (hz : ∀ i, idx i = 0#32)
    (x : (⟨2, ![1, 128]⟩ : Shape).Idx → α) (upd : (⟨1, ![10]⟩ : Shape).Idx → α) (c : Fin 10) :
    Host.scatter d (fun _ b => b) x idx upd (ValueIdx.ix2 (0 : Fin 1) (⟨c.val, by omega⟩ : Fin 128))
      = upd (ValueIdx.ix1 c) := by
  obtain ⟨uw, iw, sd, iv, wf⟩ := d
  dsimp only at huw hiw hsd hiv
  subst huw hiw hsd hiv
  exact scatter_row_apply_dims wf idx hz x upd c

end Cert.ScatterReads
-- ==== Proof.HostPrefix.lean ====
/-
  The three arrays the host prepares before the region, read where the kernel's result depends on them.

  The bias vector is viewed as a 1 × 128 row; the classifier matrix W_cls (128 × 10) is written into the first ten columns
  of a zero 128 × 128 matrix; the classifier bias (10 entries) is written into the first ten entries of a zero 1 × 128 row.
  Both writes are overwrite scatters at the start index zero, so at a column c < 10 they read the update.
-/
import proofs.«150283_g37177236914914_cont_8to1_b_461_24_alg».proof.Proof.Gen.KernelIdeal.Frame
import proofs.«150283_g37177236914914_cont_8to1_b_461_24_alg».proof.Proof.ScatterReads
import Idealize.ShloMosaic.Lib.StableHlo.Run
import Idealize.ShloMosaic.Lib.ValueLayout

noncomputable section

namespace Cert.GraphConv.Host

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The bias row as the region finds it: the bias vector with a unit axis in front. -/
theorem biasRow_eq (c : Dev nD) :
    (V m c main_v0 : S1x128.Idx → EReal) = shapeCast S1x128 (m ((c : Thread nD τ).loc main_arg4)) shapeCasts_S128_S1x128 := by
  show StableHlo.after hostOps0 (fun b => m (c, b)) (Proc.devRef .tc main_v0) = _
  after_results <;> rfl

/-- Entry (0, k) of the bias row is entry k of the bias vector. -/
theorem biasRow_at (c : Dev nD) (k : Fin 128) :
    (V m c main_v0 : S1x128.Idx → EReal) (ix2 (0 : Fin 1) k) = (m ((c : Thread nD τ).loc main_arg4) : S128.Idx → EReal) (ix1 k) := by
  rw [biasRow_eq]
  exact shapeCast_a_1a_apply _ _ _ _

/-- The padded classifier matrix as the region finds it. -/
theorem paddedW_eq (c : Dev nD) :
    (V m c main_v3 : S128x128.Idx → EReal) = Host.scatter scatter_S128x128_S1_S128x10_01_n_1_0 (fun _ b => b)
      (broadcastInDim S128x128 ![] bcast_S_S128x128 (constant (F := Ideal) S_ .f32 0x00000000#32))
      (broadcastInDim S1 ![] bcast_S_S1 (constantI S_ 32 0#32)) (m ((c : Thread nD τ).loc main_arg5)) := by
  show StableHlo.after hostOps0 (fun b => m (c, b)) (Proc.devRef .tc main_v3) = _
  after_results <;> rfl

/-- Column c < 10 of the padded classifier matrix is column c of W_cls. -/
theorem paddedW_at (c : Dev nD) (k : Fin 128) (j : Fin 10) :
    (V m c main_v3 : S128x128.Idx → EReal) (ix2 k (⟨j.val, by omega⟩ : Fin 128))
      = (m ((c : Thread nD τ).loc main_arg5) : S128x10.Idx → EReal) (ix2 k j) := by
  rw [paddedW_eq]
  exact Cert.ScatterReads.scatter_columns_apply scatter_S128x128_S1_S128x10_01_n_1_0 rfl rfl rfl rfl _ (fun _ => rfl) _ _ k j

/-- The padded classifier bias row as the region finds it. -/
theorem paddedB_eq (c : Dev nD) :
    (V m c main_v8 : S1x128.Idx → EReal) = Host.scatter scatter_S1x128_S2_S10_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      (m ((c : Thread nD τ).loc main_arg6)) := by
  show StableHlo.after hostOps0 (fun b => m (c, b)) (Proc.devRef .tc main_v8) = _
  after_results <;> rfl

/-- Both entries of the start-index vector of the bias write are the zero word. -/
theorem startIdx_zero (i : S2.Idx) :
    (concatenate S2 0 [⟨S1, broadcastInDim S1 ![] bcast_S_S1 (constantI S_ 32 0#32)⟩,
        ⟨S1, broadcastInDim S1 ![] bcast_S_S1 (constantI S_ 32 0#32)⟩] concatenates_S1_S1_S2_d0 : IVec S2 32) i = 0#32 := by
  obtain ⟨a, rfl⟩ : ∃ a : Fin 2, i = ix1 a := ⟨i 0, eq_ix1 i⟩
  match a with
  | ⟨0, _⟩ => rfl
  | ⟨1, _⟩ => rfl

/-- Entry (0, c) with c < 10 of the padded bias row is entry c of the classifier bias. -/
theorem paddedB_at (c : Dev nD) (j : Fin 10) :
    (V m c main_v8 : S1x128.Idx → EReal) (ix2 (0 : Fin 1) (⟨j.val, by omega⟩ : Fin 128))
      = (m ((c : Thread nD τ).loc main_arg6) : S10.Idx → EReal) (ix1 j) := by
  rw [paddedB_eq]
  exact Cert.ScatterReads.scatter_row_apply scatter_S1x128_S2_S10_0_0_01_0 rfl rfl rfl rfl _ startIdx_zero _ _ j

end Cert.GraphConv.Host

end
-- ==== Proof.KernelRun.lean ====
/-
  The kernel program's run, read: its result is the class scores of the specification.

  The region leaves graph β's padded score row in row β of a 16 × 1 × 128 array; the host then keeps columns 0 … 9 and
  drops the unit axis. At a column c < 10 the padded classifier matrix and bias row read W_cls and b_cls, the bias row
  reads b, and the other arrays are the arguments untouched, so the padded score is the class score.
-/
import proofs.«150283_g37177236914914_cont_8to1_b_461_24_alg».proof.Proof.ArrayValue
import proofs.«150283_g37177236914914_cont_8to1_b_461_24_alg».proof.Proof.HostPrefix
import proofs.«150283_g37177236914914_cont_8to1_b_461_24_alg».proof.Proof.Spec

noncomputable section

namespace Cert.GraphConv.Run

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.GraphConv Cert.GraphConv.Body Cert.GraphConv.Arr

variable (m : (ℓ : Loc nD τ sig) → Buf (Elt Ideal) ℓ) (ρ : Dev nD → PrngReg)

/-- The class scores of the launch contents of the seven arguments on core `c`. -/
def scores (c : Dev nD) : S16x10.Idx → EReal :=
  logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- At a column below 10, graph β's padded score is its class score. -/
theorem score_eq_logits (c : Dev nD) (β : Fin 16) (j : Fin 10) :
    scoreOf m c β (⟨j.val, by omega⟩ : Fin 128) = scores m c (ix2 β j) := by
  unfold scoreOf rowScore scores logits pooled hid agg
  simp only [V_main_arg0 m c, V_main_arg1 m c, V_main_arg2 m c, V_main_arg3 m c, Host.biasRow_at m c, Host.paddedW_at m c,
    Host.paddedB_at m c]

/-- The host operations after the region: keep columns 0 … 9 of every row and drop the unit axis. -/
def tail (X : S16x1x128.Idx → EReal) : S16x10.Idx → EReal :=
  shapeCast S16x10 (extractStridedSlice S16x1x10 ![0, 0, 0] X slices_S16x1x128_S16x1x10_0_0_0) shapeCasts_S16x1x10_S16x10

/-- Entry (β, j) of the tail is entry (β, 0, j) of the region's array. -/
theorem tail_at (X : S16x1x128.Idx → EReal) (β : Fin 16) (j : Fin 10) :
    tail X (ix2 β j) = X (ix3 β (0 : Fin 1) (⟨j.val, by omega⟩ : Fin 128)) := by
  unfold tail
  refine (shapeCast_apply _ _ (ix2 β j) (ix3 β (0 : Fin 1) j) ?_).trans ?_
  · rw [Shape.rowMajor_val_three, Shape.rowMajor_val_two]
    show (β.val * 1 + 0) * 10 + j.val = β.val * 10 + j.val
    omega
  · refine extractStridedSlice_apply _ _ _ _ _ fun a => ?_
    match a with
    | ⟨0, _⟩ => show β.val = 0 + β.val; omega
    | ⟨1, _⟩ => show (0 : ℕ) = 0 + 0; rfl
    | ⟨2, _⟩ => show j.val = 0 + j.val; omega

/-- The program's result buffer after the host tail is the tail of the region's array. -/
theorem result_tail (c : Dev nD) :
    Pipeline.afterTail₀ cfgs (dats m) 0 (V0 m) [hostOps1] c main_v11 = tail (regionOut m c) := by
  have hW : (Pipeline.withArrays (cfgs 0).spec c (V0 m c) (fun w => (dats m 0 c).arrAt w (cfgs 0).N) (Proc.devRef .tc main_v9)
      : S16x1x128.Idx → EReal) = regionOut m c :=
    (Pipeline.withArrays_arr spec0 launch0.win.arr_inj c _ _ 7).trans (final m c)
  rw [← hW]
  unfold Pipeline.afterTail₀
  show StableHlo.after hostOps1 _ (Proc.devRef .tc main_v11) = _
  after_results <;> rfl

/-- THE PROGRAM'S RESULT is the class scores. -/
theorem result_eq (c : Dev nD) :
    Pipeline.afterTail₀ cfgs (dats m) 0 (V0 m) [hostOps1] c main_v11 = scores m c := by
  rw [result_tail]
  funext i
  obtain ⟨β, j, rfl⟩ : ∃ (β : Fin 16) (j : Fin 10), i = ix2 β j := ⟨i 0, i 1, eq_ix2 i⟩
  rw [tail_at]
  exact score_eq_logits m c β j

/-- THE RUN of the idealized kernel program: every weakly fair execution terminates with the result buffer at the class
    scores of the arguments, the arguments unchanged. -/
theorem run : θ_run defs (onTc (τ := τ) (main (F := Ideal))) ⟨m, fun _ => 0, ρ⟩ (fun r => ∀ c : Dev nD,
      r.2.mem ((c.tc : Thread nD τ).loc main_v11) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v11 (Pipeline.mem_restRefs_of main_v11 (by decide) (by decide))).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.GraphConv.Run

end
-- ==== Proof.lean ====
/-
  A graph-convolution classifier, fused into one kernel, against its reference.

  Both programs take node features x (16 graphs × 1024 nodes × 128), dense adjacency weights adj (16 × 1024 × 1024), two
  128 × 128 weight matrices, a bias, and a 128 × 10 classifier with its bias, and compute for each graph β and class c

      ∑ k, ((∑ n, max (∑ d, x(β,n,d)·W_root(d,k) + ∑ d, (∑ i, [adj(β,i,n) > 1/2]·x(β,i,d))·W_nbr(d,k) + b(k)) 0) · (1/1024))
            · W_cls(k,c) + b_cls(c)

  on the extended reals. The kernel handles two graphs per grid point, uses the adjacency indicator transposed in a matrix
  product that contracts both first axes, multiplies the node sum by the exact binary fraction 2⁻¹⁰ where the reference
  divides by 1024 (the same on every extended real), and works with the classifier padded by zero columns to width 128,
  of which the host keeps the first ten afterwards. Sums are only re-associated and re-ordered, never distributed over, so
  no finiteness of the inputs is used.

  The three frames: the kernel programs' are their generated frame certificates; the reference has no kernel, and its
  frame is its run with the result dropped. The idealization rewrote nothing, so there is nothing to preserve. The
  algebraic claim: both runs end at the specification's class scores of the arguments (Proof/KernelRun.lean for the kernel,
  Proof/RefSpec.lean over the reference's run), and the arguments agree.
-/
import proofs.«150283_g37177236914914_cont_8to1_b_461_24_alg».proof.Defs
import proofs.«150283_g37177236914914_cont_8to1_b_461_24_alg».proof.Proof.Gen.Kernel
import proofs.«150283_g37177236914914_cont_8to1_b_461_24_alg».proof.Proof.Gen.Kernel.Skeleton
import proofs.«150283_g37177236914914_cont_8to1_b_461_24_alg».proof.Proof.Gen.Kernel.Launch
import proofs.«150283_g37177236914914_cont_8to1_b_461_24_alg».proof.Proof.Gen.Kernel.Points
import proofs.«150283_g37177236914914_cont_8to1_b_461_24_alg».proof.Proof.Gen.Kernel.Frame
import proofs.«150283_g37177236914914_cont_8to1_b_461_24_alg».proof.Proof.Gen.KernelIdeal
import proofs.«150283_g37177236914914_cont_8to1_b_461_24_alg».proof.Proof.Gen.KernelIdeal.Skeleton
import proofs.«150283_g37177236914914_cont_8to1_b_461_24_alg».proof.Proof.Gen.KernelIdeal.Launch
import proofs.«150283_g37177236914914_cont_8to1_b_461_24_alg».proof.Proof.Gen.KernelIdeal.Points
import proofs.«150283_g37177236914914_cont_8to1_b_461_24_alg».proof.Proof.Gen.KernelIdeal.Frame
import proofs.«150283_g37177236914914_cont_8to1_b_461_24_alg».proof.Proof.Gen.ReferenceIdeal
import proofs.«150283_g37177236914914_cont_8to1_b_461_24_alg».proof.Proof.Gen.Pre_finite_inputs
import proofs.«150283_g37177236914914_cont_8to1_b_461_24_alg».proof.Proof.Gen.ReferenceIdeal.Run
import proofs.«150283_g37177236914914_cont_8to1_b_461_24_alg».proof.Proof.Gen.ReferenceIdeal.Read
import proofs.«150283_g37177236914914_cont_8to1_b_461_24_alg».proof.Proof.RefSpec
import proofs.«150283_g37177236914914_cont_8to1_b_461_24_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the class scores of the (agreeing) arguments. -/
theorem algebraic : Cert.algebraic_KernelIdeal_ReferenceIdeal := by
  intro m ρ m' ρ' _ hagree
  refine ⟨fun c => Cert.GraphConv.Run.scores m c, Cert.GraphConv.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.GraphConv.Ref.result_eq,
    (hagree c).1, (hagree c).2.1, (hagree c).2.2.1, (hagree c).2.2.2.1, (hagree c).2.2.2.2.1, (hagree c).2.2.2.2.2.1,
    (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
